-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S128x64 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x600000 32) (main_arg2 : FVec F S128x128 .f32) (main_arg3 : FVec F S128x128 .f32) (main_arg4 : FVec F S128 .f32) (main_arg5 : FVec F S128x64 .f32) (main_arg6 : FVec F S128x64 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩
abbrev S50000x64 : Shape := ⟨2, ![50000, 64]⟩
abbrev S5000x128 : Shape := ⟨2, ![5000, 128]⟩
abbrev S5000x1 : Shape := ⟨2, ![5000, 1]⟩
abbrev S5000x64 : Shape := ⟨2, ![5000, 64]⟩
abbrev S600000x64 : Shape := ⟨2, ![600000, 64]⟩
abbrev S1x64 : Shape := ⟨2, ![1, 64]⟩

abbrev nBuf : Space → Nat
  | .hbm => 60
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .f32⟩
  | .hbm, ⟨13, _⟩ => ⟨S600000, .f32⟩
  | .hbm, ⟨14, _⟩ => ⟨S_, .f32⟩
  | .hbm, ⟨15, _⟩ => ⟨S50000, .f32⟩
  | .hbm, ⟨16, _⟩ => ⟨S600000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S50000x128, .bf16⟩
  | .hbm, ⟨26, _⟩ => ⟨S_, .i32⟩
  | .hbm, ⟨27, _⟩ => ⟨S600000, .i32⟩
  | .hbm, ⟨28, _⟩ => ⟨S600000, .i1⟩
  | .hbm, ⟨29, _⟩ => ⟨S_, .i32⟩
  | .hbm, ⟨30, _⟩ => ⟨S600000, .i32⟩
  | .hbm, ⟨31, _⟩ => ⟨S600000, .i32⟩
  | .hbm, ⟨32, _⟩ => ⟨S600000, .i32⟩
  | .hbm, ⟨33, _⟩ => ⟨S600000x1, .i32⟩
  | .hbm, ⟨34, _⟩ => ⟨S600000x128, .bf16⟩
  | .hbm, ⟨35, _⟩ => ⟨S600000x128, .f32⟩
  | .hbm, ⟨36, _⟩ => ⟨S_, .f32⟩
  | .hbm, ⟨37, _⟩ => ⟨S50000x128, .f32⟩
  | .hbm, ⟨38, _⟩ => ⟨S600000x1, .i32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x64, .f32⟩
  | .hbm, ⟨43, _⟩ => ⟨S50000x64, .bf16⟩
  | .hbm, ⟨44, _⟩ => ⟨S_, .i32⟩
  | .hbm, ⟨45, _⟩ => ⟨S600000, .i32⟩
  | .hbm, ⟨46, _⟩ => ⟨S600000, .i1⟩
  | .hbm, ⟨47, _⟩ => ⟨S_, .i32⟩
  | .hbm, ⟨48, _⟩ => ⟨S600000, .i32⟩
  | .hbm, ⟨49, _⟩ => ⟨S600000, .i32⟩
  | .hbm, ⟨50, _⟩ => ⟨S600000, .i32⟩
  | .hbm, ⟨51, _⟩ => ⟨S600000x1, .i32⟩
  | .hbm, ⟨52, _⟩ => ⟨S600000x64, .bf16⟩
  | .hbm, ⟨53, _⟩ => ⟨S600000x64, .f32⟩
  | .hbm, ⟨54, _⟩ => ⟨S_, .f32⟩
  | .hbm, ⟨55, _⟩ => ⟨S50000x64, .f32⟩
  | .hbm, ⟨56, _⟩ => ⟨S600000x1, .i32⟩
  | .hbm, ⟨57, _⟩ => ⟨S50000x64, .f32⟩
  | .hbm, ⟨58, _⟩ => ⟨S1x64, .f32⟩
  | .hbm, ⟨59, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S128x64, .f32⟩
  | .local _ .vmem, ⟨10, _⟩ => ⟨S5000x128, .f32⟩
  | .local _ .vmem, ⟨11, _⟩ => ⟨S5000x128, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x128, .f32⟩
  | .local _ .vmem, ⟨17, _⟩ => ⟨S5000x128, .f32⟩
  | .local _ .vmem, ⟨18, _⟩ => ⟨S5000x1, .f32⟩
  | .local _ .vmem, ⟨19, _⟩ => ⟨S5000x1, .f32⟩
  | .local _ .vmem, ⟨20, _⟩ => ⟨S128x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26_0 : Ref sig .tc := ⟨.hbm, 41, rfl⟩
abbrev main_v26_1 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S50000_S50000x1 : S50000.ShapeCasts S50000x1
  bitsLt_bf16_f32 : FTy.bits .bf16 < FTy.bits .f32
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S50000x64_S600000x1_S600000x64_1_0_n_n_0_1_164_wf : GatherDims.WF S50000x64 S600000x1 S600000x64 [1] [0] [] [0] [] 1 ![1, 64]
  scatter_S50000x64_S600000x1_S600000x64_1_0_0_1_wf : ScatterDims.WF S50000x64 S600000x1 S600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .f32 = 32 ∨ (Rect.block (s := S128x64) S128x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x64.size a ≤ S50000x64.size a
  hwx0_8 : ∀ i : grid0.Coords, EltTy.bits .f32 = 32 ∨ (Rect.block (s := S50000x64) S5000x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S600000x1_S600000x64_1_0_n_n_0_1_164 : GatherDims S50000x64 S600000x1 S600000x64 where
  offsetDims := [1]
  collapsedSliceDims := [0]
  operandBatchingDims := []
  startIndicesBatchingDims := []
  startIndexMap := [0]
  indexVectorDim := 1
  sliceSizes := ![1, 64]
  wf := gather_S50000x64_S600000x1_S600000x64_1_0_n_n_0_1_164_wf
def scatter_S50000x64_S600000x1_S600000x64_1_0_0_1 : ScatterDims S50000x64 S600000x1 S600000x64 where
  updateWindowDims := [1]
  insertedWindowDims := [0]
  scatterDimsToOperandDims := [0]
  indexVectorDim := 1
  wf := scatter_S50000x64_S600000x1_S600000x64_1_0_0_1_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26_0) S5000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v26_1) S5000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v38) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26_0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 81
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S50000x128, .f32⟩
  | .hbm, ⟨23, _⟩ => ⟨S600000x1, .i32⟩
  | .hbm, ⟨24, _⟩ => ⟨S50000x128, .f32⟩
  | .hbm, ⟨25, _⟩ => ⟨S_, .f32⟩
  | .hbm, ⟨26, _⟩ => ⟨S600000, .f32⟩
  | .hbm, ⟨27, _⟩ => ⟨S_, .f32⟩
  | .hbm, ⟨28, _⟩ => ⟨S50000, .f32⟩
  | .hbm, ⟨29, _⟩ => ⟨S600000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S1x600000, .i32⟩
  | .hbm, ⟨47, _⟩ => ⟨S600000, .i32⟩
  | .hbm, ⟨48, _⟩ => ⟨S1x600000, .i32⟩
  | .hbm, ⟨49, _⟩ => ⟨S600000, .i32⟩
  | .hbm, ⟨50, _⟩ => ⟨S_, .i32⟩
  | .hbm, ⟨51, _⟩ => ⟨S600000, .i32⟩
  | .hbm, ⟨52, _⟩ => ⟨S600000, .i1⟩
  | .hbm, ⟨53, _⟩ => ⟨S_, .i32⟩
  | .hbm, ⟨54, _⟩ => ⟨S600000, .i32⟩
  | .hbm, ⟨55, _⟩ => ⟨S600000, .i32⟩
  | .hbm, ⟨56, _⟩ => ⟨S600000, .i32⟩
  | .hbm, ⟨57, _⟩ => ⟨S600000x1, .i32⟩
  | .hbm, ⟨58, _⟩ => ⟨S600000x128, .f32⟩
  | .hbm, ⟨59, _⟩ => ⟨S_, .f32⟩
  | .hbm, ⟨60, _⟩ => ⟨S50000x128, .f32⟩
  | .hbm, ⟨61, _⟩ => ⟨S600000x1, .i32⟩
  | .hbm, ⟨62, _⟩ => ⟨S50000x128, .f32⟩
  | .hbm, ⟨63, _⟩ => ⟨S_, .f32⟩
  | .hbm, ⟨64, _⟩ => ⟨S600000, .f32⟩
  | .hbm, ⟨65, _⟩ => ⟨S_, .f32⟩
  | .hbm, ⟨66, _⟩ => ⟨S50000, .f32⟩
  | .hbm, ⟨67, _⟩ => ⟨S600000x1, .i32⟩
  | .hbm, ⟨68, _⟩ => ⟨S50000, .f32⟩
  | .hbm, ⟨69, _⟩ => ⟨S_, .f32⟩
  | .hbm, ⟨70, _⟩ => ⟨S50000, .f32⟩
  | .hbm, ⟨71, _⟩ => ⟨S50000, .f32⟩
  | .hbm, ⟨72, _⟩ => ⟨S50000x1, .f32⟩
  | .hbm, ⟨73, _⟩ => ⟨S50000x128, .f32⟩
  | .hbm, ⟨74, _⟩ => ⟨S50000x128, .f32⟩
  | .hbm, ⟨75, _⟩ => ⟨S50000x64, .f32⟩
  | .hbm, ⟨76, _⟩ => ⟨S50000x64, .f32⟩
  | .hbm, ⟨77, _⟩ => ⟨S50000x64, .f32⟩
  | .hbm, ⟨78, _⟩ => ⟨S1x64, .f32⟩
  | .hbm, ⟨79, _⟩ => ⟨S50000x64, .f32⟩
  | .hbm, ⟨80, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_4 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KRun.lean ====
/-
  The two-call program's run, with its result named. The program is four segments: host operations, the first
  kernel call over ten row blocks, host operations, the second kernel call over ten row blocks. Every execution
  terminates, and at the end every buffer that is not scoped to a call holds the value obtained by folding the segments
  over the launch memory: a host segment applies its operations, a call leaves in each of its arrays what its
  write-backs leave. In particular the result buffer ends at that fold's value, and the eight arguments end as launched.
-/
import proofs.«117566_j50190987821456_2_alg».proof.Defs
import proofs.«117566_j50190987821456_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution terminates; the result buffer ends at the fold's value at the last boundary, the arguments as
    launched. -/
theorem run_value : θ_run defs (onTc (τ := τ) (main (F := F))) ⟨m, fun _ => 0, ρ⟩ (fun r => ∀ c : Dev nD,
      r.2.mem ((c.tc : Thread nD τ).loc main_v40) = W4 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v40 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.KRun

end
-- ==== Proof.LibDot2.lean ====
/-
  Two matrix products read at an index, at the ideal values, for any extents and any well-formedness witness of the
  dimension numbers: an accelerator matrix product into a zero accumulator of an [M,K] by a [K,N] array, and a host
  `dot_general` of an [M,K] by an [N,K] array contracted on both last axes, are both the plain sum over the contracted
  coordinate of the products of the entries.
-/
import Idealize.ShloMosaic.PureOps.Ideal.Laws
import Idealize.ShloMosaic.Lib.ValueIdx

noncomputable section

open scoped BigOperators

namespace Cert.LibDot2

open Idealize.ShloMosaic Idealize.ShloMosaic.ValueIdx

variable {M K N : Nat} {φ₁ φ₂ : FTy}

/-- An [M,K] by [K,N] matrix product accumulated into zeros: entry (a, b) is `∑ c, A (a, c) · B (c, b)`. -/
theorem matmul_zero_apply (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    matmul (⟨[1], [0], [0], [1], [], [], w⟩ : DotDims ⟨2, ![M, K]⟩ ⟨2, ![K, N]⟩ ⟨2, ![M, N]⟩) prec A B
        (constant ⟨2, ![M, N]⟩ .f32 0x00000000#32) (ix2 a b)
      = ∑ c : Fin K, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![M, K]⟩ ⟨2, ![K, N]⟩ ⟨2, ![M, N]⟩) K rfl rfl).symm]
  refine Finset.sum_congr rfl fun c _ => ?_
  have c2 := contrEquiv1_symm_val (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A host `dot_general` of an [M,K] by an [N,K] array, both contracted on their last axis: entry (a, b) is
    `∑ c, A (a, c) · B (b, c)`. -/
theorem dotGeneral_nt_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (a : Fin M) (b : Fin N) :
    Host.dotGeneral (⟨[1], [1], [0], [0], [], [], w⟩ : DotDims ⟨2, ![M, K]⟩ ⟨2, ![N, K]⟩ ⟨2, ![M, N]⟩) prec A B (ix2 a b)
      = ∑ c : Fin K, A (ix2 a c) * B (ix2 b c) := by
  show FloatOps.dotGeneral _ prec _ A B (ix2 a b) = _
  rw [Ideal.dotGeneral_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun c _ => ?_
  have c2 := contrEquiv1_symm_val (⟨[1], [1], [0], [0], [], [], w⟩ : DotDims ⟨2, ![M, K]⟩ ⟨2, ![N, K]⟩ ⟨2, ![M, N]⟩) K rfl rfl c
  have l2 : (⟨[1], [1], [0], [0], [], [], w⟩ : DotDims ⟨2, ![M, K]⟩ ⟨2, ![N, K]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![M, K]⟩ ⟨2, ![N, K]⟩ ⟨2, ![M, N]⟩).rhsIdx (ix2 a b)
      ((contrEquiv1 _ K rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.LibDot2

end
-- ==== Proof.KPay.lean ====
/-
  The two kernel bodies' stored values, read at an index of the row block, at the ideal values (floats are extended
  reals; a change of float format is the identity).

  First body, on a block of 5000 rows: with a the aggregated features, d the per-row reciprocal count (one column),
  x the node features, Wl, Wr the two weights, b the bias row,
      hidden (p, q) = max ((∑ c, (a (p, c) · d (p, 0)) · Wl (c, q) + ∑ c, x (p, c) · Wr (c, q)) + b (0, q)) 0
  and the projection stored beside it is  proj (p, q) = ∑ k, hidden (p, k) · Wp (k, q).
  Second body: with g the aggregated projections, h the hidden block,
      out (p, q) = (∑ k, h (p, k) · Wr (k, q) + g (p, q) · d (p, 0)) + b (0, q).
-/
import proofs.«117566_j50190987821456_2_alg».proof.Proof.Gen.KernelIdeal.Skeleton
import proofs.«117566_j50190987821456_2_alg».proof.Proof.LibDot2
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KPay

open Cert.KernelIdeal Cert.KernelIdeal.Gen Idealize.ShloMosaic Idealize.ShloMosaic.ValueIdx

/-- The first body's hidden block as a formula. -/
def hiddenAt (a : Vec Ideal S5000x128 .f32) (d : Vec Ideal S5000x1 .f32) (x : Vec Ideal S5000x128 .f32)
    (Wl Wr : Vec Ideal S128x128 .f32) (b : Vec Ideal S1x128 .f32) (p : Fin 5000) (q : Fin 128) : EReal :=
  max (((∑ c : Fin 128, (a (ix2 p c) * d (ix2 p (0 : Fin 1))) * Wl (ix2 c q)) + (∑ c : Fin 128, x (ix2 p c) * Wr (ix2 c q)))
    + b (ix2 (0 : Fin 1) q)) 0

/-- A one-column array broadcast along its rows, read at an index. -/
theorem bcast_col_apply {C : Nat} (d : Vec Ideal S5000x1 .f32) (h : S5000x1.Broadcasts ⟨2, ![5000, C]⟩) (p : Fin 5000) (q : Fin C) :
    broadcastTo ⟨2, ![5000, C]⟩ d h (ix2 p q) = d (ix2 p (0 : Fin 1)) := by
  refine broadcastTo_apply d h (ix2 p q) (ix2 p (0 : Fin 1)) fun a => ?_
  match a with
  | ⟨0, _⟩ => rfl
  | ⟨1, _⟩ => rfl

/-- A one-row array broadcast down 5000 rows, read at an index. -/
theorem bcast_row_apply {C : Nat} (b : (⟨2, ![1, C]⟩ : Shape).Idx → EReal) (h : (⟨2, ![1, C]⟩ : Shape).Broadcasts ⟨2, ![5000, C]⟩)
    (hC : C ≠ 1) (p : Fin 5000) (q : Fin C) :
    broadcastTo ⟨2, ![5000, C]⟩ b h (ix2 p q) = b (ix2 (0 : Fin 1) q) := by
  refine broadcastTo_apply b h (ix2 p q) (ix2 (0 : Fin 1) q) fun a => ?_
  match a with
  | ⟨0, _⟩ => rfl
  | ⟨1, _⟩ =>
    show q.val = if C = 1 then 0 else q.val
    rw [if_neg hC]

theorem pay1_apply (a : Vec Ideal S5000x128 .f32) (d : Vec Ideal S5000x1 .f32) (x : Vec Ideal S5000x128 .f32)
    (Wl Wr : Vec Ideal S128x128 .f32) (b : Vec Ideal S1x128 .f32) (p : Fin 5000) (q : Fin 128) :
    k0_pay1 (F := Ideal) a d x Wl Wr b (ix2 p q) = hiddenAt a d x Wl Wr b p q := by
  unfold k0_pay1 hiddenAt
  refine congrArg₂ max (congrArg₂ (· + ·) (congrArg₂ (· + ·) ?_ ?_) ?_) Ideal.ofBits_zero_f32
  · refine (Cert.LibDot2.matmul_zero_apply Facts₀.dot_S5000x128_S128x128_S5000x128_1_0_0_1_n_n_wf none _ _ p q).trans ?_
    refine Finset.sum_congr rfl fun c _ => ?_
    show (shapeCast S5000x128 a _ (ix2 p c) * broadcastTo S5000x128 (shapeCast S5000x1 d _) _ (ix2 p c)) * Wl (ix2 c q) = _
    rw [shapeCast_self, shapeCast_self, bcast_col_apply]
  · exact Cert.LibDot2.matmul_zero_apply Facts₀.dot_S5000x128_S128x128_S5000x128_1_0_0_1_n_n_wf none _ _ p q
  · show broadcastTo S5000x128 (shapeCast S1x128 b _) _ (ix2 p q) = _
    rw [shapeCast_self, bcast_row_apply _ _ (by decide)]

theorem pay2_apply (a : Vec Ideal S5000x128 .f32) (d : Vec Ideal S5000x1 .f32) (x : Vec Ideal S5000x128 .f32)
    (Wl Wr : Vec Ideal S128x128 .f32) (b : Vec Ideal S1x128 .f32) (Wp : Vec Ideal S128x64 .f32) (p : Fin 5000) (q : Fin 64) :
    k0_pay2 (F := Ideal) a d x Wl Wr b Wp (ix2 p q) = ∑ k : Fin 128, hiddenAt a d x Wl Wr b p k * Wp (ix2 k q) := by
  unfold k0_pay2
  refine (Cert.LibDot2.matmul_zero_apply Facts₀.dot_S5000x128_S128x64_S5000x64_1_0_0_1_n_n_wf none _ _ p q).trans ?_
  refine Finset.sum_congr rfl fun k _ => ?_
  show k0_pay1 (F := Ideal) a d x Wl Wr b (ix2 p k) * Wp (ix2 k q) = _
  rw [pay1_apply]

/-- The second body's block as a formula. -/
def outAt (g : Vec Ideal S5000x64 .f32) (d : Vec Ideal S5000x1 .f32) (h : Vec Ideal S5000x128 .f32)
    (Wr : Vec Ideal S128x64 .f32) (b : Vec Ideal S1x64 .f32) (p : Fin 5000) (q : Fin 64) : EReal :=
  ((∑ k : Fin 128, h (ix2 p k) * Wr (ix2 k q)) + g (ix2 p q) * d (ix2 p (0 : Fin 1))) + b (ix2 (0 : Fin 1) q)

theorem pay3_apply (g : Vec Ideal S5000x64 .f32) (d : Vec Ideal S5000x1 .f32) (h : Vec Ideal S5000x128 .f32)
    (Wr : Vec Ideal S128x64 .f32) (b : Vec Ideal S1x64 .f32) (p : Fin 5000) (q : Fin 64) :
    k1_pay1 (F := Ideal) g d h Wr b (ix2 p q) = outAt g d h Wr b p q := by
  unfold k1_pay1 outAt
  refine congrArg₂ (· + ·) (congrArg₂ (· + ·) ?_ ?_) ?_
  · refine (Cert.LibDot2.matmul_zero_apply Facts₀.dot_S5000x128_S128x64_S5000x64_1_0_0_1_n_n_wf none _ _ p q).trans ?_
    refine Finset.sum_congr rfl fun k _ => ?_
    show shapeCast S5000x128 h _ (ix2 p k) * Wr (ix2 k q) = _
    rw [shapeCast_self]
  · show shapeCast S5000x64 g _ (ix2 p q) * broadcastTo S5000x64 (shapeCast S5000x1 d _) _ (ix2 p q) = _
    rw [shapeCast_self, shapeCast_self, bcast_col_apply]
  · show broadcastTo S5000x64 (shapeCast S1x64 b _) _ (ix2 p q) = _
    rw [shapeCast_self, bcast_row_apply _ _ (by decide)]

end Cert.KernelIdeal.KPay

end
-- ==== Proof.KBlocks.lean ====
/-
  From row blocks to whole arrays, for both kernel calls, at the ideal values.

  Each call runs over ten grid points; point t reads rows 5000 t … 5000 t + 4999 of the node-indexed arrays (and the
  small weight and bias arrays whole) and writes the same rows of its outputs. A block's row p is therefore the array's
  row 5000 t + p, the ten blocks tile the 50000 rows, and each output array ends as ONE function of the arrays the call
  was entered with, row by row: the body's formula (hidden / projection / second-layer output) read at the array's row.
-/
import proofs.«117566_j50190987821456_2_alg».proof.Proof.Gen.KernelIdeal.Frame
import proofs.«117566_j50190987821456_2_alg».proof.Proof.KPay
import Idealize.ShloMosaic.Lib.Pipeline.Value

set_option maxRecDepth 16384

noncomputable section

namespace Cert.KernelIdeal.KBlocks

open Cert.KernelIdeal Cert.KernelIdeal.Gen Cert.KernelIdeal.KPay
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The first call -/

theorem idx_facts0 : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = t.val
    ∧ win0_7.index t (1 : Fin 2) = 0
    ∧ win0_8.index t (0 : Fin 2) = t.val
    ∧ win0_8.index t (1 : Fin 2) = 0 :=
  (by decide +kernel : ∀ t : Fin grid0.N, _)

/-- Row p of block t is row 5000 t + p of the array. -/
def rowOf0 (t : Fin cfg0.N) (p : Fin 5000) : Fin 50000 :=
  ⟨t.val * 5000 + p.val, by have h : t.val < 10 := lt_of_lt_of_eq (show t.val < grid0.N from t.isLt) N_0
                            have := p.isLt; omega⟩

theorem emb0_0 (t : Fin cfg0.N) (p : Fin 5000) (q : Fin 128) :
    ((cfg0.win 0).blk t).view.emb (ix2 p q) = (ix2 (rowOf0 t p) q : S50000x128.Idx) := by
  have h := idx_facts0 t
  funext a; apply Fin.ext
  match a with
  | ⟨0, _⟩ =>
    show win0_0.index t (0 : Fin 2) * 5000 + 1 * p.val = t.val * 5000 + p.val
    omega
  | ⟨1, _⟩ =>
    show win0_0.index t (1 : Fin 2) * 128 + 1 * q.val = q.val
    omega

theorem emb0_1 (t : Fin cfg0.N) (p : Fin 5000) (q : Fin 128) :
    ((cfg0.win 1).blk t).view.emb (ix2 p q) = (ix2 (rowOf0 t p) q : S50000x128.Idx) := by
  have h := idx_facts0 t
  funext a; apply Fin.ext
  match a with
  | ⟨0, _⟩ =>
    show win0_1.index t (0 : Fin 2) * 5000 + 1 * p.val = t.val * 5000 + p.val
    omega
  | ⟨1, _⟩ =>
    show win0_1.index t (1 : Fin 2) * 128 + 1 * q.val = q.val
    omega

theorem emb0_2 (t : Fin cfg0.N) (p : Fin 5000) (q : Fin 1) :
    ((cfg0.win 2).blk t).view.emb (ix2 p q) = (ix2 (rowOf0 t p) q : S50000x1.Idx) := by
  have h := idx_facts0 t
  funext a; apply Fin.ext
  match a with
  | ⟨0, _⟩ =>
    show win0_2.index t (0 : Fin 2) * 5000 + 1 * p.val = t.val * 5000 + p.val
    omega
  | ⟨1, _⟩ =>
    show win0_2.index t (1 : Fin 2) * 1 + 1 * q.val = q.val
    omega

theorem emb0_3 (t : Fin cfg0.N) (p : Fin 128) (q : Fin 128) :
    ((cfg0.win 3).blk t).view.emb (ix2 p q) = (ix2 (p) q : S128x128.Idx) := by
  have h := idx_facts0 t
  funext a; apply Fin.ext
  match a with
  | ⟨0, _⟩ =>
    show win0_3.index t (0 : Fin 2) * 128 + 1 * p.val = p.val
    omega
  | ⟨1, _⟩ =>
    show win0_3.index t (1 : Fin 2) * 128 + 1 * q.val = q.val
    omega

theorem emb0_4 (t : Fin cfg0.N) (p : Fin 128) (q : Fin 128) :
    ((cfg0.win 4).blk t).view.emb (ix2 p q) = (ix2 (p) q : S128x128.Idx) := by
  have h := idx_facts0 t
  funext a; apply Fin.ext
  match a with
  | ⟨0, _⟩ =>
    show win0_4.index t (0 : Fin 2) * 128 + 1 * p.val = p.val
    omega
  | ⟨1, _⟩ =>
    show win0_4.index t (1 : Fin 2) * 128 + 1 * q.val = q.val
    omega

theorem emb0_5 (t : Fin cfg0.N) (p : Fin 1) (q : Fin 128) :
    ((cfg0.win 5).blk t).view.emb (ix2 p q) = (ix2 (p) q : S1x128.Idx) := by
  have h := idx_facts0 t
  funext a; apply Fin.ext
  match a with
  | ⟨0, _⟩ =>
    show win0_5.index t (0 : Fin 2) * 1 + 1 * p.val = p.val
    omega
  | ⟨1, _⟩ =>
    show win0_5.index t (1 : Fin 2) * 128 + 1 * q.val = q.val
    omega

theorem emb0_6 (t : Fin cfg0.N) (p : Fin 128) (q : Fin 64) :
    ((cfg0.win 6).blk t).view.emb (ix2 p q) = (ix2 (p) q : S128x64.Idx) := by
  have h := idx_facts0 t
  funext a; apply Fin.ext
  match a with
  | ⟨0, _⟩ =>
    show win0_6.index t (0 : Fin 2) * 128 + 1 * p.val = p.val
    omega
  | ⟨1, _⟩ =>
    show win0_6.index t (1 : Fin 2) * 64 + 1 * q.val = q.val
    omega

theorem emb0_7 (t : Fin cfg0.N) (p : Fin 5000) (q : Fin 128) :
    ((cfg0.win 7).blk t).view.emb (ix2 p q) = (ix2 (rowOf0 t p) q : S50000x128.Idx) := by
  have h := idx_facts0 t
  funext a; apply Fin.ext
  match a with
  | ⟨0, _⟩ =>
    show win0_7.index t (0 : Fin 2) * 5000 + 1 * p.val = t.val * 5000 + p.val
    omega
  | ⟨1, _⟩ =>
    show win0_7.index t (1 : Fin 2) * 128 + 1 * q.val = q.val
    omega

theorem emb0_8 (t : Fin cfg0.N) (p : Fin 5000) (q : Fin 64) :
    ((cfg0.win 8).blk t).view.emb (ix2 p q) = (ix2 (rowOf0 t p) q : S50000x64.Idx) := by
  have h := idx_facts0 t
  funext a; apply Fin.ext
  match a with
  | ⟨0, _⟩ =>
    show win0_8.index t (0 : Fin 2) * 5000 + 1 * p.val = t.val * 5000 + p.val
    omega
  | ⟨1, _⟩ =>
    show win0_8.index t (1 : Fin 2) * 64 + 1 * q.val = q.val
    omega

theorem blk0_0 (c : Dev nD) (t : Fin cfg0.N) (p : Fin 5000) (q : Fin 128) :
    iblk0 V c 0 t (ix2 p q) = V c main_v24 (ix2 (rowOf0 t p) q) := by
  show V c main_v24 (((cfg0.win 0).blk t).view.emb (ix2 p q)) = _
  rw [emb0_0]

theorem blk0_1 (c : Dev nD) (t : Fin cfg0.N) (p : Fin 5000) (q : Fin 128) :
    iblk0 V c 1 t (ix2 p q) = V c main_arg0 (ix2 (rowOf0 t p) q) := by
  show V c main_arg0 (((cfg0.win 1).blk t).view.emb (ix2 p q)) = _
  rw [emb0_1]

theorem blk0_2 (c : Dev nD) (t : Fin cfg0.N) (p : Fin 5000) (q : Fin 1) :
    iblk0 V c 2 t (ix2 p q) = V c main_v12 (ix2 (rowOf0 t p) q) := by
  show V c main_v12 (((cfg0.win 2).blk t).view.emb (ix2 p q)) = _
  rw [emb0_2]

theorem blk0_3 (c : Dev nD) (t : Fin cfg0.N) (p : Fin 128) (q : Fin 128) :
    iblk0 V c 3 t (ix2 p q) = V c main_arg2 (ix2 (p) q) := by
  show V c main_arg2 (((cfg0.win 3).blk t).view.emb (ix2 p q)) = _
  rw [emb0_3]

theorem blk0_4 (c : Dev nD) (t : Fin cfg0.N) (p : Fin 128) (q : Fin 128) :
    iblk0 V c 4 t (ix2 p q) = V c main_arg3 (ix2 (p) q) := by
  show V c main_arg3 (((cfg0.win 4).blk t).view.emb (ix2 p q)) = _
  rw [emb0_4]

theorem blk0_5 (c : Dev nD) (t : Fin cfg0.N) (p : Fin 1) (q : Fin 128) :
    iblk0 V c 5 t (ix2 p q) = V c main_v25 (ix2 (p) q) := by
  show V c main_v25 (((cfg0.win 5).blk t).view.emb (ix2 p q)) = _
  rw [emb0_5]

theorem blk0_6 (c : Dev nD) (t : Fin cfg0.N) (p : Fin 128) (q : Fin 64) :
    iblk0 V c 6 t (ix2 p q) = V c main_arg5 (ix2 (p) q) := by
  show V c main_arg5 (((cfg0.win 6).blk t).view.emb (ix2 p q)) = _
  rw [emb0_6]

theorem mem_blk0_7 (t : Fin cfg0.N) (i : S50000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v26_0).slice (win0_7.rect t)).set ↔ _
  rw [View.set_slice_whole, Rect.mem_set_unit]
  exact Iff.rfl

/-- Every row is in the block of the point its row number divided by 5000 names. -/
theorem covered0_7 (i : S50000x128.Idx) :
    ∃ t : Fin cfg0.N, (cfg0.win 7).flush t = true ∧ i ∈ ((cfg0.win 7).blk t).view.set := by
  have hi0 : (i 0).val < 50000 := (i 0).isLt
  have hi1 : (i 1).val < 128 := (i 1).isLt
  have hT : (i 0).val / 5000 < cfg0.N := by rw [show cfg0.N = 10 from N_0]; omega
  have h := idx_facts0 ⟨(i 0).val / 5000, hT⟩
  have h0 : win0_7.index ⟨(i 0).val / 5000, hT⟩ (0 : Fin 2) = (i 0).val / 5000 := h.2.2.2.2.2.2.2.2.2.2.2.2.2.2.1
  have h1 : win0_7.index ⟨(i 0).val / 5000, hT⟩ (1 : Fin 2) = 0 := h.2.2.2.2.2.2.2.2.2.2.2.2.2.2.2.1
  refine ⟨⟨(i 0).val / 5000, hT⟩, flush0_7 _, ?_⟩
  rw [mem_blk0_7]
  intro a
  match a with
  | ⟨0, _⟩ =>
    show win0_7.index ⟨(i 0).val / 5000, hT⟩ (0 : Fin 2) * 5000 ≤ (i 0).val ∧ (i 0).val < win0_7.index ⟨(i 0).val / 5000, hT⟩ (0 : Fin 2) * 5000 + 5000
    omega
  | ⟨1, _⟩ =>
    show win0_7.index ⟨(i 0).val / 5000, hT⟩ (1 : Fin 2) * 128 ≤ (i 1).val ∧ (i 1).val < win0_7.index ⟨(i 0).val / 5000, hT⟩ (1 : Fin 2) * 128 + 128
    omega

theorem mem_blk0_8 (t : Fin cfg0.N) (i : S50000x64.Idx) :
    i ∈ ((cfg0.win 8).blk t).view.set ↔ ∀ a : Fin 2, win0_8.index t a * S5000x64.size a ≤ (i a).val ∧ (i a).val < win0_8.index t a * S5000x64.size a + S5000x64.size a := by
  show i ∈ ((View.whole main_v26_1).slice (win0_8.rect t)).set ↔ _
  rw [View.set_slice_whole, Rect.mem_set_unit]
  exact Iff.rfl

/-- Every row is in the block of the point its row number divided by 5000 names. -/
theorem covered0_8 (i : S50000x64.Idx) :
    ∃ t : Fin cfg0.N, (cfg0.win 8).flush t = true ∧ i ∈ ((cfg0.win 8).blk t).view.set := by
  have hi0 : (i 0).val < 50000 := (i 0).isLt
  have hi1 : (i 1).val < 64 := (i 1).isLt
  have hT : (i 0).val / 5000 < cfg0.N := by rw [show cfg0.N = 10 from N_0]; omega
  have h := idx_facts0 ⟨(i 0).val / 5000, hT⟩
  have h0 : win0_8.index ⟨(i 0).val / 5000, hT⟩ (0 : Fin 2) = (i 0).val / 5000 := h.2.2.2.2.2.2.2.2.2.2.2.2.2.2.2.2.1
  have h1 : win0_8.index ⟨(i 0).val / 5000, hT⟩ (1 : Fin 2) = 0 := h.2.2.2.2.2.2.2.2.2.2.2.2.2.2.2.2.2
  refine ⟨⟨(i 0).val / 5000, hT⟩, flush0_8 _, ?_⟩
  rw [mem_blk0_8]
  intro a
  match a with
  | ⟨0, _⟩ =>
    show win0_8.index ⟨(i 0).val / 5000, hT⟩ (0 : Fin 2) * 5000 ≤ (i 0).val ∧ (i 0).val < win0_8.index ⟨(i 0).val / 5000, hT⟩ (0 : Fin 2) * 5000 + 5000
    omega
  | ⟨1, _⟩ =>
    show win0_8.index ⟨(i 0).val / 5000, hT⟩ (1 : Fin 2) * 64 ≤ (i 1).val ∧ (i 1).val < win0_8.index ⟨(i 0).val / 5000, hT⟩ (1 : Fin 2) * 64 + 64
    omega

/-- The hidden features as one function of the arrays the first call is entered with. -/
def hidArr (a : S50000x128.Idx → EReal) (d : S50000x1.Idx → EReal) (x : S50000x128.Idx → EReal)
    (Wl Wr : S128x128.Idx → EReal) (b : S1x128.Idx → EReal) : S50000x128.Idx → EReal := fun y =>
  max (((∑ c : Fin 128, (a (ix2 (y 0) c) * d (ix2 (y 0) (0 : Fin 1))) * Wl (ix2 c (y 1))) + (∑ c : Fin 128, x (ix2 (y 0) c) * Wr (ix2 c (y 1))))
    + b (ix2 (0 : Fin 1) (y 1))) 0

/-- The projected hidden features as one function of the same arrays and the projection weight. -/
def projArr (a : S50000x128.Idx → EReal) (d : S50000x1.Idx → EReal) (x : S50000x128.Idx → EReal)
    (Wl Wr : S128x128.Idx → EReal) (b : S1x128.Idx → EReal) (Wp : S128x64.Idx → EReal) : S50000x64.Idx → EReal := fun y =>
  ∑ k : Fin 128, hidArr a d x Wl Wr b (ix2 (y 0) k) * Wp (ix2 k (y 1))

/-- What point t writes back to the hidden array is block t of hidArr. -/
theorem flushed0_7 (c : Dev nD) (t : Fin cfg0.N) :
    (dat0 V c).flushed 7 t = ((cfg0.win 7).blk t).view.read (Elt Ideal)
      (hidArr (V c main_v24) (V c main_v12) (V c main_arg0) (V c main_arg2) (V c main_arg3) (V c main_v25)) := by
  show (cfg0.win 7).cut (grid0.coords t) ((dat0 V c).after 7 t) = _
  rw [after0_7]
  unfold out0_7
  rw [View.canon_unit_zero hz]
  simp only [View.ld_unit_zero (S := S5000x128) hz, View.ld_unit_zero (S := S5000x1) hz, View.ld_unit_zero (S := S128x128) hz,
    View.ld_unit_zero (S := S1x128) hz]
  funext j
  obtain ⟨p, q, rfl⟩ : ∃ (p : Fin 5000) (q : Fin 128), j = ix2 p q := ⟨j 0, j 1, eq_ix2 j⟩
  show k0_pay1 (F := Ideal) (iblk0 V c 0 t) (iblk0 V c 2 t) (iblk0 V c 1 t) (iblk0 V c 3 t) (iblk0 V c 4 t) (iblk0 V c 5 t) (ix2 p q)
    = hidArr (V c main_v24) (V c main_v12) (V c main_arg0) (V c main_arg2) (V c main_arg3) (V c main_v25)
        (((cfg0.win 7).blk t).view.emb (ix2 p q))
  refine (pay1_apply _ _ _ _ _ _ p q).trans ?_
  rw [emb0_7]
  unfold hiddenAt hidArr
  simp only [blk0_0 V c t, blk0_1 V c t, blk0_2 V c t, blk0_3 V c t, blk0_4 V c t, blk0_5 V c t]

/-- What point t writes back to the projection array is block t of projArr. -/
theorem flushed0_8 (c : Dev nD) (t : Fin cfg0.N) :
    (dat0 V c).flushed 8 t = ((cfg0.win 8).blk t).view.read (Elt Ideal)
      (projArr (V c main_v24) (V c main_v12) (V c main_arg0) (V c main_arg2) (V c main_arg3) (V c main_v25) (V c main_arg5)) := by
  show (cfg0.win 8).cut (grid0.coords t) ((dat0 V c).after 8 t) = _
  rw [after0_8]
  unfold out0_8
  rw [View.canon_unit_zero hz]
  simp only [View.ld_unit_zero (S := S5000x128) hz, View.ld_unit_zero (S := S5000x1) hz, View.ld_unit_zero (S := S128x128) hz,
    View.ld_unit_zero (S := S1x128) hz, View.ld_unit_zero (S := S128x64) hz]
  funext j
  obtain ⟨p, q, rfl⟩ : ∃ (p : Fin 5000) (q : Fin 64), j = ix2 p q := ⟨j 0, j 1, eq_ix2 j⟩
  show k0_pay2 (F := Ideal) (iblk0 V c 0 t) (iblk0 V c 2 t) (iblk0 V c 1 t) (iblk0 V c 3 t) (iblk0 V c 4 t) (iblk0 V c 5 t) (iblk0 V c 6 t) (ix2 p q)
    = projArr (V c main_v24) (V c main_v12) (V c main_arg0) (V c main_arg2) (V c main_arg3) (V c main_v25) (V c main_arg5)
        (((cfg0.win 8).blk t).view.emb (ix2 p q))
  refine (pay2_apply _ _ _ _ _ _ _ p q).trans ?_
  rw [emb0_8]
  unfold projArr hiddenAt hidArr
  simp only [blk0_0 V c t, blk0_1 V c t, blk0_2 V c t, blk0_3 V c t, blk0_4 V c t, blk0_5 V c t, blk0_6 V c t]

/-- The hidden array after the first call. -/
theorem final0_7 (c : Dev nD) : (dat0 V c).arrAt 7 cfg0.N =
    hidArr (V c main_v24) (V c main_v12) (V c main_arg0) (V c main_arg2) (V c main_arg3) (V c main_v25) :=
  (dat0 V c).arrAt_eq_of_cover 7 _ (fun t _ => flushed0_7 V c t) covered0_7

/-- The projection array after the first call. -/
theorem final0_8 (c : Dev nD) : (dat0 V c).arrAt 8 cfg0.N =
    projArr (V c main_v24) (V c main_v12) (V c main_arg0) (V c main_arg2) (V c main_arg3) (V c main_v25) (V c main_arg5) :=
  (dat0 V c).arrAt_eq_of_cover 8 _ (fun t _ => flushed0_8 V c t) covered0_8

/-! ## The second call -/

theorem idx_facts1 : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = t.val
    ∧ win1_5.index t (1 : Fin 2) = 0 :=
  (by decide +kernel : ∀ t : Fin grid1.N, _)

/-- Row p of block t is row 5000 t + p of the array. -/
def rowOf1 (t : Fin cfg1.N) (p : Fin 5000) : Fin 50000 :=
  ⟨t.val * 5000 + p.val, by have h : t.val < 10 := lt_of_lt_of_eq (show t.val < grid1.N from t.isLt) N_1
                            have := p.isLt; omega⟩

theorem emb1_0 (t : Fin cfg1.N) (p : Fin 5000) (q : Fin 64) :
    ((cfg1.win 0).blk t).view.emb (ix2 p q) = (ix2 (rowOf1 t p) q : S50000x64.Idx) := by
  have h := idx_facts1 t
  funext a; apply Fin.ext
  match a with
  | ⟨0, _⟩ =>
    show win1_0.index t (0 : Fin 2) * 5000 + 1 * p.val = t.val * 5000 + p.val
    omega
  | ⟨1, _⟩ =>
    show win1_0.index t (1 : Fin 2) * 64 + 1 * q.val = q.val
    omega

theorem emb1_1 (t : Fin cfg1.N) (p : Fin 5000) (q : Fin 128) :
    ((cfg1.win 1).blk t).view.emb (ix2 p q) = (ix2 (rowOf1 t p) q : S50000x128.Idx) := by
  have h := idx_facts1 t
  funext a; apply Fin.ext
  match a with
  | ⟨0, _⟩ =>
    show win1_1.index t (0 : Fin 2) * 5000 + 1 * p.val = t.val * 5000 + p.val
    omega
  | ⟨1, _⟩ =>
    show win1_1.index t (1 : Fin 2) * 128 + 1 * q.val = q.val
    omega

theorem emb1_2 (t : Fin cfg1.N) (p : Fin 5000) (q : Fin 1) :
    ((cfg1.win 2).blk t).view.emb (ix2 p q) = (ix2 (rowOf1 t p) q : S50000x1.Idx) := by
  have h := idx_facts1 t
  funext a; apply Fin.ext
  match a with
  | ⟨0, _⟩ =>
    show win1_2.index t (0 : Fin 2) * 5000 + 1 * p.val = t.val * 5000 + p.val
    omega
  | ⟨1, _⟩ =>
    show win1_2.index t (1 : Fin 2) * 1 + 1 * q.val = q.val
    omega

theorem emb1_3 (t : Fin cfg1.N) (p : Fin 128) (q : Fin 64) :
    ((cfg1.win 3).blk t).view.emb (ix2 p q) = (ix2 (p) q : S128x64.Idx) := by
  have h := idx_facts1 t
  funext a; apply Fin.ext
  match a with
  | ⟨0, _⟩ =>
    show win1_3.index t (0 : Fin 2) * 128 + 1 * p.val = p.val
    omega
  | ⟨1, _⟩ =>
    show win1_3.index t (1 : Fin 2) * 64 + 1 * q.val = q.val
    omega

theorem emb1_4 (t : Fin cfg1.N) (p : Fin 1) (q : Fin 64) :
    ((cfg1.win 4).blk t).view.emb (ix2 p q) = (ix2 (p) q : S1x64.Idx) := by
  have h := idx_facts1 t
  funext a; apply Fin.ext
  match a with
  | ⟨0, _⟩ =>
    show win1_4.index t (0 : Fin 2) * 1 + 1 * p.val = p.val
    omega
  | ⟨1, _⟩ =>
    show win1_4.index t (1 : Fin 2) * 64 + 1 * q.val = q.val
    omega

theorem emb1_5 (t : Fin cfg1.N) (p : Fin 5000) (q : Fin 64) :
    ((cfg1.win 5).blk t).view.emb (ix2 p q) = (ix2 (rowOf1 t p) q : S50000x64.Idx) := by
  have h := idx_facts1 t
  funext a; apply Fin.ext
  match a with
  | ⟨0, _⟩ =>
    show win1_5.index t (0 : Fin 2) * 5000 + 1 * p.val = t.val * 5000 + p.val
    omega
  | ⟨1, _⟩ =>
    show win1_5.index t (1 : Fin 2) * 64 + 1 * q.val = q.val
    omega

theorem blk1_0 (c : Dev nD) (t : Fin cfg1.N) (p : Fin 5000) (q : Fin 64) :
    iblk1 V c 0 t (ix2 p q) = V c main_v38 (ix2 (rowOf1 t p) q) := by
  show V c main_v38 (((cfg1.win 0).blk t).view.emb (ix2 p q)) = _
  rw [emb1_0]

theorem blk1_1 (c : Dev nD) (t : Fin cfg1.N) (p : Fin 5000) (q : Fin 128) :
    iblk1 V c 1 t (ix2 p q) = V c main_v26_0 (ix2 (rowOf1 t p) q) := by
  show V c main_v26_0 (((cfg1.win 1).blk t).view.emb (ix2 p q)) = _
  rw [emb1_1]

theorem blk1_2 (c : Dev nD) (t : Fin cfg1.N) (p : Fin 5000) (q : Fin 1) :
    iblk1 V c 2 t (ix2 p q) = V c main_v12 (ix2 (rowOf1 t p) q) := by
  show V c main_v12 (((cfg1.win 2).blk t).view.emb (ix2 p q)) = _
  rw [emb1_2]

theorem blk1_3 (c : Dev nD) (t : Fin cfg1.N) (p : Fin 128) (q : Fin 64) :
    iblk1 V c 3 t (ix2 p q) = V c main_arg6 (ix2 (p) q) := by
  show V c main_arg6 (((cfg1.win 3).blk t).view.emb (ix2 p q)) = _
  rw [emb1_3]

theorem blk1_4 (c : Dev nD) (t : Fin cfg1.N) (p : Fin 1) (q : Fin 64) :
    iblk1 V c 4 t (ix2 p q) = V c main_v39 (ix2 (p) q) := by
  show V c main_v39 (((cfg1.win 4).blk t).view.emb (ix2 p q)) = _
  rw [emb1_4]

theorem mem_blk1_5 (t : Fin cfg1.N) (i : S50000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v40).slice (win1_5.rect t)).set ↔ _
  rw [View.set_slice_whole, Rect.mem_set_unit]
  exact Iff.rfl

/-- Every row is in the block of the point its row number divided by 5000 names. -/
theorem covered1_5 (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  have hT : (i 0).val / 5000 < cfg1.N := by rw [show cfg1.N = 10 from N_1]; omega
  have h := idx_facts1 ⟨(i 0).val / 5000, hT⟩
  have h0 : win1_5.index ⟨(i 0).val / 5000, hT⟩ (0 : Fin 2) = (i 0).val / 5000 := h.2.2.2.2.2.2.2.2.2.2.1
  have h1 : win1_5.index ⟨(i 0).val / 5000, hT⟩ (1 : Fin 2) = 0 := h.2.2.2.2.2.2.2.2.2.2.2
  refine ⟨⟨(i 0).val / 5000, hT⟩, flush1_5 _, ?_⟩
  rw [mem_blk1_5]
  intro a
  match a with
  | ⟨0, _⟩ =>
    show win1_5.index ⟨(i 0).val / 5000, hT⟩ (0 : Fin 2) * 5000 ≤ (i 0).val ∧ (i 0).val < win1_5.index ⟨(i 0).val / 5000, hT⟩ (0 : Fin 2) * 5000 + 5000
    omega
  | ⟨1, _⟩ =>
    show win1_5.index ⟨(i 0).val / 5000, hT⟩ (1 : Fin 2) * 64 ≤ (i 1).val ∧ (i 1).val < win1_5.index ⟨(i 0).val / 5000, hT⟩ (1 : Fin 2) * 64 + 64
    omega

/-- The second layer's output as one function of the arrays the second call is entered with. -/
def outArr (g : S50000x64.Idx → EReal) (d : S50000x1.Idx → EReal) (h : S50000x128.Idx → EReal)
    (Wr : S128x64.Idx → EReal) (b : S1x64.Idx → EReal) : S50000x64.Idx → EReal := fun y =>
  ((∑ k : Fin 128, h (ix2 (y 0) k) * Wr (ix2 k (y 1))) + g (ix2 (y 0) (y 1)) * d (ix2 (y 0) (0 : Fin 1))) + b (ix2 (0 : Fin 1) (y 1))

/-- What point t writes back to the result array is block t of outArr. -/
theorem flushed1_5 (c : Dev nD) (t : Fin cfg1.N) :
    (dat1 V c).flushed 5 t = ((cfg1.win 5).blk t).view.read (Elt Ideal)
      (outArr (V c main_v38) (V c main_v12) (V c main_v26_0) (V c main_arg6) (V c main_v39)) := by
  show (cfg1.win 5).cut (grid1.coords t) ((dat1 V c).after 5 t) = _
  rw [after1_5]
  unfold out1_5
  rw [View.canon_unit_zero hz]
  simp only [View.ld_unit_zero (S := S5000x128) hz, View.ld_unit_zero (S := S5000x1) hz, View.ld_unit_zero (S := S5000x64) hz,
    View.ld_unit_zero (S := S1x64) hz, View.ld_unit_zero (S := S128x64) hz]
  funext j
  obtain ⟨p, q, rfl⟩ : ∃ (p : Fin 5000) (q : Fin 64), j = ix2 p q := ⟨j 0, j 1, eq_ix2 j⟩
  show k1_pay1 (F := Ideal) (iblk1 V c 0 t) (iblk1 V c 2 t) (iblk1 V c 1 t) (iblk1 V c 3 t) (iblk1 V c 4 t) (ix2 p q)
    = outArr (V c main_v38) (V c main_v12) (V c main_v26_0) (V c main_arg6) (V c main_v39)
        (((cfg1.win 5).blk t).view.emb (ix2 p q))
  refine (pay3_apply _ _ _ _ _ p q).trans ?_
  rw [emb1_5]
  unfold outAt outArr
  simp only [blk1_0 V c t, blk1_1 V c t, blk1_2 V c t, blk1_3 V c t, blk1_4 V c t]

/-- The result array after the second call. -/
theorem final1_5 (c : Dev nD) : (dat1 V c).arrAt 5 cfg1.N =
    outArr (V c main_v38) (V c main_v12) (V c main_v26_0) (V c main_arg6) (V c main_v39) :=
  (dat1 V c).arrAt_eq_of_cover 5 _ (fun t _ => flushed1_5 V c t) covered1_5

end Cert.KernelIdeal.KBlocks

end
-- ==== Proof.KChain.lean ====
/-
  The kernel program's buffer contents, folded through its four segments and read at the result buffer.

  The program is: host operations, the first call, host operations, the second call. A stretch of host
  operations leaves every buffer it does not write as it found it; a call leaves its input arrays and every
  buffer outside its windows as entered, and each output array as one function of the arrays it was entered with
  (the hidden features, their projection, the second-layer output). Composing these facts, the result buffer at the
  end is the second-layer output formula applied to the hidden-feature formula of the launch arguments, with the
  host-computed buffers (the aggregated features, the reciprocal counts, the broadcast biases) left as they stand.
-/
import proofs.«117566_j50190987821456_2_alg».proof.Proof.Gen.KernelIdeal.Frame
import proofs.«117566_j50190987821456_2_alg».proof.Proof.KBlocks
import Idealize.ShloMosaic.PureOps.Ideal

set_option maxRecDepth 16384

noncomputable section

namespace Cert.KernelIdeal.KChain

open Cert.KernelIdeal Cert.KernelIdeal.Gen Cert.KernelIdeal.KBlocks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- A stretch of host operations keeps a buffer none of its operations writes: the goal
    `after ops V b = V b`, closed by running through the stretch's write sets. -/
local macro "keeps " ops:ident : tactic => `(tactic|
  (refine StableHlo.after_of_forall_not_mem _ _ (List.forall_iff_forall_mem.mp ?_)
   simp only [$ops:ident, List.flatten_cons, List.flatten_nil, List.append_nil, List.cons_append,
     List.nil_append, List.Forall, StableHlo.nullary_writes, StableHlo.unary_writes, StableHlo.binary_writes,
     StableHlo.ternary_writes, StableHlo.quaternary_writes, StableHlo.reshape_writes,
     StableHlo.binaryIndexed_writes, Finset.mem_singleton]
   repeat' apply And.intro
   all_goals exact StableHlo.devRef_ne_of_ne (by decide)))

/-! ## The first stretch of host operations writes no argument -/

theorem V1_main_arg0 (c : Dev nD) : V1 m ρ c main_arg0 = m ((c : Thread nD τ).loc main_arg0) := by
  show StableHlo.after hostOps0 (W0 m ρ c) (Proc.devRef .tc main_arg0) = W0 m ρ c (Proc.devRef .tc main_arg0)
  keeps hostOps0

theorem V1_main_arg1 (c : Dev nD) : V1 m ρ c main_arg1 = m ((c : Thread nD τ).loc main_arg1) := by
  show StableHlo.after hostOps0 (W0 m ρ c) (Proc.devRef .tc main_arg1) = W0 m ρ c (Proc.devRef .tc main_arg1)
  keeps hostOps0

theorem V1_main_arg2 (c : Dev nD) : V1 m ρ c main_arg2 = m ((c : Thread nD τ).loc main_arg2) := by
  show StableHlo.after hostOps0 (W0 m ρ c) (Proc.devRef .tc main_arg2) = W0 m ρ c (Proc.devRef .tc main_arg2)
  keeps hostOps0

theorem V1_main_arg3 (c : Dev nD) : V1 m ρ c main_arg3 = m ((c : Thread nD τ).loc main_arg3) := by
  show StableHlo.after hostOps0 (W0 m ρ c) (Proc.devRef .tc main_arg3) = W0 m ρ c (Proc.devRef .tc main_arg3)
  keeps hostOps0

theorem V1_main_arg4 (c : Dev nD) : V1 m ρ c main_arg4 = m ((c : Thread nD τ).loc main_arg4) := by
  show StableHlo.after hostOps0 (W0 m ρ c) (Proc.devRef .tc main_arg4) = W0 m ρ c (Proc.devRef .tc main_arg4)
  keeps hostOps0

theorem V1_main_arg5 (c : Dev nD) : V1 m ρ c main_arg5 = m ((c : Thread nD τ).loc main_arg5) := by
  show StableHlo.after hostOps0 (W0 m ρ c) (Proc.devRef .tc main_arg5) = W0 m ρ c (Proc.devRef .tc main_arg5)
  keeps hostOps0

theorem V1_main_arg6 (c : Dev nD) : V1 m ρ c main_arg6 = m ((c : Thread nD τ).loc main_arg6) := by
  show StableHlo.after hostOps0 (W0 m ρ c) (Proc.devRef .tc main_arg6) = W0 m ρ c (Proc.devRef .tc main_arg6)
  keeps hostOps0

theorem V1_main_arg7 (c : Dev nD) : V1 m ρ c main_arg7 = m ((c : Thread nD τ).loc main_arg7) := by
  show StableHlo.after hostOps0 (W0 m ρ c) (Proc.devRef .tc main_arg7) = W0 m ρ c (Proc.devRef .tc main_arg7)
  keeps hostOps0

/-! ## The first call: its input windows and the buffers outside its windows are left as entered -/

/-- The reciprocal-count buffer is input window 2 of the first call. -/
theorem V2_main_v12 (c : Dev nD) : V2 m ρ c main_v12 = V1 m ρ c main_v12 :=
  (W2_arr m ρ c 2).trans (((dat0 (V1 m ρ) c).arrAt_in 2 rfl _).trans (A_eq0 (V1 m ρ) c 2))

theorem V2_main_arg6 (c : Dev nD) : V2 m ρ c main_arg6 = V1 m ρ c main_arg6 :=
  W2_of_ne m ρ c main_arg6 (by decide)

theorem V2_main_arg7 (c : Dev nD) : V2 m ρ c main_arg7 = V1 m ρ c main_arg7 :=
  W2_of_ne m ρ c main_arg7 (by decide)

theorem V2_main_v1 (c : Dev nD) : V2 m ρ c main_v1 = V1 m ρ c main_v1 :=
  W2_of_ne m ρ c main_v1 (by decide)

theorem V2_main_v3 (c : Dev nD) : V2 m ρ c main_v3 = V1 m ρ c main_v3 :=
  W2_of_ne m ρ c main_v3 (by decide)

/-! ## The second stretch of host operations writes none of these three buffers -/

theorem V3_main_v12 (c : Dev nD) : V3 m ρ c main_v12 = V2 m ρ c main_v12 := by
  show StableHlo.after hostOps1 (W2 m ρ c) (Proc.devRef .tc main_v12) = W2 m ρ c (Proc.devRef .tc main_v12)
  keeps hostOps1

theorem V3_main_v26_0 (c : Dev nD) : V3 m ρ c main_v26_0 = V2 m ρ c main_v26_0 := by
  show StableHlo.after hostOps1 (W2 m ρ c) (Proc.devRef .tc main_v26_0) = W2 m ρ c (Proc.devRef .tc main_v26_0)
  keeps hostOps1

theorem V3_main_arg6 (c : Dev nD) : V3 m ρ c main_arg6 = V2 m ρ c main_arg6 := by
  show StableHlo.after hostOps1 (W2 m ρ c) (Proc.devRef .tc main_arg6) = W2 m ρ c (Proc.devRef .tc main_arg6)
  keeps hostOps1

/-! ## The first call's output arrays -/

/-- The hidden features after the first call, as a function of the arrays it was entered with. -/
theorem V2_main_v26_0 (c : Dev nD) : V2 m ρ c main_v26_0 =
    hidArr (V1 m ρ c main_v24) (V1 m ρ c main_v12) (V1 m ρ c main_arg0) (V1 m ρ c main_arg2) (V1 m ρ c main_arg3)
      (V1 m ρ c main_v25) :=
  (W2_arr m ρ c 7).trans (final0_7 (V1 m ρ) c)

/-- The projected hidden features after the first call. -/
theorem V2_main_v26_1 (c : Dev nD) : V2 m ρ c main_v26_1 =
    projArr (V1 m ρ c main_v24) (V1 m ρ c main_v12) (V1 m ρ c main_arg0) (V1 m ρ c main_arg2) (V1 m ρ c main_arg3)
      (V1 m ρ c main_v25) (V1 m ρ c main_arg5) :=
  (W2_arr m ρ c 8).trans (final0_8 (V1 m ρ) c)

/-! ## The result buffer -/

/-- The result buffer at the end, as a function of the arrays the second call was entered with. -/
theorem out_eq (c : Dev nD) : W4 m ρ c (Proc.devRef .tc main_v40) =
    outArr (V3 m ρ c main_v38) (V3 m ρ c main_v12) (V3 m ρ c main_v26_0) (V3 m ρ c main_arg6) (V3 m ρ c main_v39) :=
  (W4_arr m ρ c 5).trans (final1_5 (V3 m ρ) c)

/-- The composition: the result buffer is the second-layer output formula at the hidden-feature formula of the
    launch arguments; the buffers the host operations compute are left as they stand. -/
theorem result_eq (c : Dev nD) : W4 m ρ c (Proc.devRef .tc main_v40) =
    outArr (V3 m ρ c main_v38) (V1 m ρ c main_v12)
      (hidArr (V1 m ρ c main_v24) (V1 m ρ c main_v12) (m ((c : Thread nD τ).loc main_arg0))
        (m ((c : Thread nD τ).loc main_arg2)) (m ((c : Thread nD τ).loc main_arg3)) (V1 m ρ c main_v25))
      (m ((c : Thread nD τ).loc main_arg6)) (V3 m ρ c main_v39) := by
  rw [out_eq, V3_main_v12, V2_main_v12, V3_main_v26_0, V2_main_v26_0, V3_main_arg6, V2_main_arg6,
    V1_main_arg0, V1_main_arg2, V1_main_arg3, V1_main_arg6]

/-- The projected hidden features after the first call, at the launch arguments. -/
theorem p_eq (c : Dev nD) : V2 m ρ c main_v26_1 =
    projArr (V1 m ρ c main_v24) (V1 m ρ c main_v12) (m ((c : Thread nD τ).loc main_arg0))
      (m ((c : Thread nD τ).loc main_arg2)) (m ((c : Thread nD τ).loc main_arg3)) (V1 m ρ c main_v25)
      (m ((c : Thread nD τ).loc main_arg5)) := by
  rw [V2_main_v26_1, V1_main_arg0, V1_main_arg2, V1_main_arg3, V1_main_arg5]

end Cert.KernelIdeal.KChain

end
-- ==== Proof.LibGatherRows.lean ====
/-
  A gather of whole rows, read at an index. For a table x : [N, D] and one row number per result row,
  idx : [R, 1], the gather with one offset axis (the result's axis 1), the table's axis 0 collapsed and named by
  the start index, and slices [1, D], produces the [R, D] array whose row t is the table's row idx[t, 0]: the
  start index is read as a signed integer and clamped into [0, N − 1], and the column is the result's own column.
  The same with one more batch axis: idx : [R, A, 1] and result [R, A, D], row (t, a) being the table's row
  idx[t, a, 0].
-/
import Idealize.ShloMosaic.Lib.ValueIdx

noncomputable section

namespace Idealize.ShloMosaic.ValueIdx

open Idealize.ShloMosaic

section Rows
variable {α : Type}

/-- The dimension numbers of a row gather: operand [N, D], start indices [R, 1], result [R, D]. -/
abbrev rowsDims (N D R : Nat) (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The start-indices index [t, 0] of result index (t, j). -/
abbrev rowsIdx {R D : Nat} (y : (⟨2, ![R, D]⟩ : Shape).Idx) : (⟨2, ![R, 1]⟩ : Shape).Idx :=
  fun a => match a with | ⟨0, _⟩ => ⟨(y 0).val, idx2_lt0 y⟩ | ⟨1, _⟩ => ⟨0, Nat.one_pos⟩

/-- The row gather at (t, j): the table at row idx[t, 0] (signed, clamped into [0, N − 1]) and column j. -/
theorem gather_rows_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (y : (⟨2, ![R, D]⟩ : Shape).Idx) :
    Host.gather (rowsDims N D R wf) x idx y
      = x (ix2 ⟨min (idx (rowsIdx y)).toInt.toNat (N - 1), by omega⟩ ⟨(y 1).val, idx2_lt1 y⟩) := by
  unfold Host.gather
  congr 1
  funext a
  refine Fin.ext ?_
  show (rowsDims N D R wf).start y idx a + (rowsDims N D R wf).batchCoord y a + (rowsDims N D R wf).offCoord y a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (rowsDims N D R wf).startIndexMap from List.mem_singleton.mpr rfl)]
    have hsi : (rowsDims N D R wf).siIdx y ⟨List.idxOf (⟨0, by decide⟩ : Fin 2) (rowsDims N D R wf).startIndexMap,
        List.idxOf_lt_length_iff.2 (List.mem_singleton.mpr rfl)⟩ = rowsIdx y := by
      funext b; refine Fin.ext ?_
      match b with
      | ⟨0, _⟩ => rfl
      | ⟨1, _⟩ => rfl
    rw [hsi]
    rfl
  | ⟨1, _⟩ =>
    unfold GatherDims.start
    rw [dif_neg (show (⟨1, by decide⟩ : Fin 2) ∉ (rowsDims N D R wf).startIndexMap from
      fun h => absurd (congrArg Fin.val (List.mem_singleton.mp h)) Nat.one_ne_zero)]
    simp only [Nat.zero_add]
    rfl

end Rows

section Rows3
variable {α : Type}

/-- The dimension numbers of a row gather with two batch axes: operand [N, D], start indices [R, A, 1], result
    [R, A, D]. -/
abbrev rows3Dims (N D R A : Nat) (wf : GatherDims.WF ⟨2, ![N, D]⟩ ⟨3, ![R, A, 1]⟩ ⟨3, ![R, A, D]⟩ [2] [0] [] [0] [] 2 ![1, D]) :
    GatherDims ⟨2, ![N, D]⟩ ⟨3, ![R, A, 1]⟩ ⟨3, ![R, A, D]⟩ where
  offsetDims := [2]
  collapsedSliceDims := [0]
  operandBatchingDims := []
  startIndicesBatchingDims := []
  startIndexMap := [0]
  indexVectorDim := 2
  sliceSizes := ![1, D]
  wf := wf

theorem idx3_lt0 {n0 n1 n2 : Nat} (j : (⟨3, ![n0, n1, n2]⟩ : Shape).Idx) : (j 0).val < n0 := (j 0).isLt
theorem idx3_lt1 {n0 n1 n2 : Nat} (j : (⟨3, ![n0, n1, n2]⟩ : Shape).Idx) : (j 1).val < n1 := (j 1).isLt
theorem idx3_lt2 {n0 n1 n2 : Nat} (j : (⟨3, ![n0, n1, n2]⟩ : Shape).Idx) : (j 2).val < n2 := (j 2).isLt

/-- The start-indices index [t, a, 0] of result index (t, a, j). -/
abbrev rows3Idx {R A D : Nat} (y : (⟨3, ![R, A, D]⟩ : Shape).Idx) : (⟨3, ![R, A, 1]⟩ : Shape).Idx :=
  fun b => match b with | ⟨0, _⟩ => ⟨(y 0).val, idx3_lt0 y⟩ | ⟨1, _⟩ => ⟨(y 1).val, idx3_lt1 y⟩ | ⟨2, _⟩ => ⟨0, Nat.one_pos⟩

/-- The row gather at (t, a, j): the table at row idx[t, a, 0] (signed, clamped into [0, N − 1]) and column j. -/
theorem gather_rows3_apply {N D R A w : Nat} (hN : 0 < N)
    (wf : GatherDims.WF ⟨2, ![N, D]⟩ ⟨3, ![R, A, 1]⟩ ⟨3, ![R, A, D]⟩ [2] [0] [] [0] [] 2 ![1, D])
    (x : (⟨2, ![N, D]⟩ : Shape).Idx → α) (idx : IVec ⟨3, ![R, A, 1]⟩ w) (y : (⟨3, ![R, A, D]⟩ : Shape).Idx) :
    Host.gather (rows3Dims N D R A wf) x idx y
      = x (ix2 ⟨min (idx (rows3Idx y)).toInt.toNat (N - 1), by omega⟩ ⟨(y 2).val, idx3_lt2 y⟩) := by
  unfold Host.gather
  congr 1
  funext a
  refine Fin.ext ?_
  show (rows3Dims N D R A wf).start y idx a + (rows3Dims N D R A wf).batchCoord y a + (rows3Dims N D R A wf).offCoord y a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (rows3Dims N D R A wf).startIndexMap from List.mem_singleton.mpr rfl)]
    have hsi : (rows3Dims N D R A wf).siIdx y ⟨List.idxOf (⟨0, by decide⟩ : Fin 2) (rows3Dims N D R A wf).startIndexMap,
        List.idxOf_lt_length_iff.2 (List.mem_singleton.mpr rfl)⟩ = rows3Idx y := by
      funext b; refine Fin.ext ?_
      match b with
      | ⟨0, _⟩ => rfl
      | ⟨1, _⟩ => rfl
      | ⟨2, _⟩ => rfl
    rw [hsi]
    rfl
  | ⟨1, _⟩ =>
    unfold GatherDims.start
    rw [dif_neg (show (⟨1, by decide⟩ : Fin 2) ∉ (rows3Dims N D R A wf).startIndexMap from
      fun h => absurd (congrArg Fin.val (List.mem_singleton.mp h)) Nat.one_ne_zero)]
    simp only [Nat.zero_add]
    rfl

end Rows3

/-! ## Looking a row up by a signed word in range

jnp's indexing first wraps a negative index by the table's height, select (i < 0) (i + n) i: for an index that is
not negative this is the index itself. The gather then clamps the start index, read as a signed integer, into
[0, N − 1]: for a word w with 0 ≤ w (signed) and w < N the clamped start is w itself. -/

/-- A signed word that is not negative is not below zero in the signed order. -/
theorem cmpi_slt_zero_of_nonneg (w : BitVec 32) (h : 0 ≤ w.toInt) : IntOp.cmpi .slt w (0#32) = 0#1 := by
  unfold IntOp.cmpi
  have : w.slt (0#32) = false := by
    simp only [BitVec.slt, BitVec.toInt_zero, decide_eq_false_iff_not, not_lt]
    exact h
  simp [this]

/-- The negative-index wrap leaves a non-negative index alone. -/
theorem wrap_of_nonneg {α : Type} (w : BitVec 32) (h : 0 ≤ w.toInt) (a b : α) :
    Scalar.select (IntOp.cmpi .slt w (0#32)) a b = b := by
  rw [cmpi_slt_zero_of_nonneg w h]; exact select_zero a b

/-- For a signed word in [0, N) the clamp of a gather's start index is the word's own value. -/
theorem clamp_of_range (w : BitVec 32) (N : Nat) (h0 : 0 ≤ w.toInt) (hlt : w.toNat < N) :
    min w.toInt.toNat (N - 1) = w.toNat := by
  have e : w.toInt.toNat = w.toNat := by
    have := BitVec.toInt_eq_toNat_cond w
    split at this <;> omega
  rw [e]; omega

section
variable {α : Type}

/-- A row gather whose start index at row t is a signed word in [0, N) reads that row of the table. -/
theorem gather_rows_of_word {N D R : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ 32) (y : (⟨2, ![R, D]⟩ : Shape).Idx)
    (w : BitVec 32) (hw : idx (rowsIdx y) = w) (h0 : 0 ≤ w.toInt) (hlt : w.toNat < N) :
    Host.gather (rowsDims N D R wf) x idx y = x (ix2 ⟨w.toNat, hlt⟩ ⟨(y 1).val, idx2_lt1 y⟩) := by
  rw [gather_rows_apply hN wf x idx y]
  refine congrArg x ?_
  refine congrArg (fun r => ix2 r (⟨(y 1).val, idx2_lt1 y⟩ : Fin D)) (Fin.ext ?_)
  show min (idx (rowsIdx y)).toInt.toNat (N - 1) = w.toNat
  rw [hw]; exact clamp_of_range w N h0 hlt

/-- The same with two batch axes. -/
theorem gather_rows3_of_word {N D R A : Nat} (hN : 0 < N)
    (wf : GatherDims.WF ⟨2, ![N, D]⟩ ⟨3, ![R, A, 1]⟩ ⟨3, ![R, A, D]⟩ [2] [0] [] [0] [] 2 ![1, D])
    (x : (⟨2, ![N, D]⟩ : Shape).Idx → α) (idx : IVec ⟨3, ![R, A, 1]⟩ 32) (y : (⟨3, ![R, A, D]⟩ : Shape).Idx)
    (w : BitVec 32) (hw : idx (rows3Idx y) = w) (h0 : 0 ≤ w.toInt) (hlt : w.toNat < N) :
    Host.gather (rows3Dims N D R A wf) x idx y = x (ix2 ⟨w.toNat, hlt⟩ ⟨(y 2).val, idx3_lt2 y⟩) := by
  rw [gather_rows3_apply hN wf x idx y]
  refine congrArg x ?_
  refine congrArg (fun r => ix2 r (⟨(y 2).val, idx3_lt2 y⟩ : Fin D)) (Fin.ext ?_)
  show min (idx (rows3Idx y)).toInt.toNat (N - 1) = w.toNat
  rw [hw]; exact clamp_of_range w N h0 hlt

end

end Idealize.ShloMosaic.ValueIdx

end
-- ==== Proof.LibScatterAddRows.lean ====
/-
  An accumulating scatter of whole rows, read at an index, at the exact (extended-real) instance. For an operand
  x : [N, D], one row number per update row, idx : [R, 1], and updates upd : [R, D], the scatter with an add body,
  one update window axis (the updates' axis 1), the operand's axis 0 inserted and named by the scatter index, adds
  update row e into operand row idx[e, 0]. The row number is read as a signed integer and is NOT clamped: an update
  row whose number is outside [0, N) is dropped. So the result at (i, k) is x[i, k] plus the sum of upd[e, k] over
  the update rows e that land on row i. The same for a vector operand x : [N] with updates upd : [R]: the result
  at i is x[i] plus the sum of upd[e] over the e that land on i.
-/
import Idealize.ShloMosaic.Lib.ValueIdx

noncomputable section

open scoped BigOperators

namespace Idealize.ShloMosaic.ValueIdx

open Idealize.ShloMosaic

/-- operand [N, D], scatter indices [R, 1], updates [R, D]: update row e is added into operand row idx[e,0] -/
abbrev rowsScatterDims (N D R : Nat) (wf : ScatterDims.WF ⟨2, ![N, D]⟩ ⟨2, ![R, 1]⟩ ⟨2, ![R, D]⟩ [1] [0] [0] 1) :
    ScatterDims ⟨2, ![N, D]⟩ ⟨2, ![R, 1]⟩ ⟨2, ![R, D]⟩ where
  updateWindowDims := [1]
  insertedWindowDims := [0]
  scatterDimsToOperandDims := [0]
  indexVectorDim := 1
  wf := wf

/-- operand [N], scatter indices [R, 1], updates [R] -/
abbrev vecScatterDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- the operand row update row e lands on: idx[e,0] read signed, when it is in [0, N); none otherwise -/
def landRow (N : Nat) {R w : Nat} (idx : IVec ⟨2, ![R, 1]⟩ w) (e : Fin R) : Option (Fin N) :=
  if h : 0 ≤ (idx (ix2 e ⟨0, Nat.one_pos⟩)).toInt ∧ (idx (ix2 e ⟨0, Nat.one_pos⟩)).toInt < N then
    some ⟨(idx (ix2 e ⟨0, Nat.one_pos⟩)).toInt.toNat, by omega⟩
  else none

/-- Two rank-2 indices given by coordinates are equal only when the coordinates are. -/
theorem ix2_inj {n0 n1 : Nat} {a a' : Fin n0} {b b' : Fin n1} (h : ix2 a b = ix2 a' b') : a = a' ∧ b = b' := by
  have h0 := congrFun h (⟨0, by decide⟩ : Fin 2)
  have h1 := congrFun h (⟨1, by decide⟩ : Fin 2)
  exact ⟨h0, h1⟩

section Rows
variable {N D R w : Nat} (wf : ScatterDims.WF ⟨2, ![N, D]⟩ ⟨2, ![R, 1]⟩ ⟨2, ![R, D]⟩ [1] [0] [0] 1)

/-- On the operand's row axis the window starts at the row number idx[e, 0], read signed. -/
theorem rows_start0 (idx : IVec ⟨2, ![R, 1]⟩ w) (e : Fin R) (k' : Fin D) :
    (rowsScatterDims N D R wf).start (ix2 e k') idx (⟨0, by decide⟩ : Fin 2) = (idx (ix2 e ⟨0, Nat.one_pos⟩)).toInt := by
  unfold ScatterDims.start
  rw [dif_pos (show (⟨0, by decide⟩ : Fin 2) ∈ (rowsScatterDims N D R wf).scatterDimsToOperandDims from
    List.mem_singleton.mpr rfl)]
  have hsi : (rowsScatterDims N D R wf).siIdx (ix2 e k')
      ⟨List.idxOf (⟨0, by decide⟩ : Fin 2) (rowsScatterDims N D R wf).scatterDimsToOperandDims,
        List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]

/-- On the operand's column axis the window starts at 0: the scatter index names no column. -/
theorem rows_start1 (idx : IVec ⟨2, ![R, 1]⟩ w) (e : Fin R) (k' : Fin D) :
    (rowsScatterDims N D R wf).start (ix2 e k') idx (⟨1, by decide⟩ : Fin 2) = 0 := by
  unfold ScatterDims.start
  rw [dif_neg (show (⟨1, by decide⟩ : Fin 2) ∉ (rowsScatterDims N D R wf).scatterDimsToOperandDims from
    fun h => absurd (congrArg Fin.val (List.mem_singleton.mp h)) Nat.one_ne_zero)]

/-- The row axis is inserted: its window coordinate is 0. -/
theorem rows_window0 (e : Fin R) (k' : Fin D) :
    (rowsScatterDims N D R wf).window (ix2 e k') (⟨0, by decide⟩ : Fin 2) = 0 := rfl

/-- The column axis carries the update's column. -/
theorem rows_window1 (e : Fin R) (k' : Fin D) :
    (rowsScatterDims N D R wf).window (ix2 e k') (⟨1, by decide⟩ : Fin 2) = k'.val := rfl

/-- Update element (e, k') lands on operand element (row e lands on, k'), when row e lands at all. -/
theorem resultIdx?_rows (idx : IVec ⟨2, ![R, 1]⟩ w) (e : Fin R) (k' : Fin D) :
    (rowsScatterDims N D R wf).resultIdx? (ix2 e k') idx = (landRow N idx e).map (fun i => ix2 i k') := by
  have hs0 := rows_start0 wf idx e k'
  have hs1 := rows_start1 wf idx e k'
  have hw0 := rows_window0 wf e k'
  have hw1 := rows_window1 wf e k'
  unfold ScatterDims.resultIdx? landRow
  by_cases h : 0 ≤ (idx (ix2 e ⟨0, Nat.one_pos⟩)).toInt ∧ (idx (ix2 e ⟨0, Nat.one_pos⟩)).toInt < N
  · have hall : ∀ a : Fin 2, 0 ≤ (rowsScatterDims N D R wf).start (ix2 e k') idx a + (rowsScatterDims N D R wf).window (ix2 e k') a ∧
        (rowsScatterDims N D R wf).start (ix2 e k') idx a + (rowsScatterDims N D R wf).window (ix2 e k') a
          < (⟨2, ![N, D]⟩ : Shape).size a := by
      intro a
      match a with
      | ⟨0, _⟩ =>
        rw [hs0, hw0]
        show _ ∧ _ < ((N : Nat) : Int)
        omega
      | ⟨1, _⟩ =>
        rw [hs1, hw1]
        show _ ∧ _ < ((D : Nat) : Int)
        have := k'.isLt
        omega
    rw [dif_pos hall, dif_pos h]
    show _ = some _
    congr 1
    funext a
    refine Fin.ext ?_
    match a with
    | ⟨0, _⟩ =>
      show ((rowsScatterDims N D R wf).start (ix2 e k') idx (⟨0, by decide⟩ : Fin 2) + (rowsScatterDims N D R wf).window (ix2 e k') (⟨0, by decide⟩ : Fin 2)).toNat = _
      rw [hs0, hw0]
      simp
    | ⟨1, _⟩ =>
      show ((rowsScatterDims N D R wf).start (ix2 e k') idx (⟨1, by decide⟩ : Fin 2) + (rowsScatterDims N D R wf).window (ix2 e k') (⟨1, by decide⟩ : Fin 2)).toNat = _
      rw [hs1, hw1]
      simp
  · rw [dif_neg h, dif_neg]
    · rfl
    · intro hall
      have h0 := hall (⟨0, by decide⟩ : Fin 2)
      rw [hs0, hw0] at h0
      apply h
      have h0' : 0 ≤ (idx (ix2 e ⟨0, Nat.one_pos⟩)).toInt + ((0 : Nat) : Int) ∧
          (idx (ix2 e ⟨0, Nat.one_pos⟩)).toInt + ((0 : Nat) : Int) < ((N : Nat) : Int) := h0
      omega

/-- The accumulating row scatter at (i, k): the operand there plus the updates' column k over the update rows
    that land on row i. -/
theorem scatterAdd_rows_apply (x : (⟨2, ![N, D]⟩ : Shape).Idx → EReal) (idx : IVec ⟨2, ![R, 1]⟩ w)
    (upd : (⟨2, ![R, D]⟩ : Shape).Idx → EReal) (i : Fin N) (k : Fin D) :
    Host.scatterAdd (F := Ideal) (φ := .f32) (rowsScatterDims N D R wf) x idx upd (ix2 i k)
      = x (ix2 i k) + ∑ e ∈ Finset.univ.filter (fun e : Fin R => landRow N idx e = some i), upd (ix2 e k) := by
  show x (ix2 i k) + ∑ j ∈ Finset.univ.filter
      (fun j => (rowsScatterDims N D R wf).resultIdx? j idx = some (ix2 i k)), upd j = _
  congr 1
  rw [Finset.sum_filter, Finset.sum_filter, sum_idx2]
  refine Finset.sum_congr rfl (fun e _ => ?_)
  by_cases hl : landRow N idx e = some i
  · rw [if_pos hl, Finset.sum_eq_single k]
    · rw [if_pos]
      rw [resultIdx?_rows, hl]; rfl
    · intro k' _ hk'
      rw [if_neg]
      rw [resultIdx?_rows, hl]
      intro h
      exact hk' (ix2_inj (Option.some.inj h)).2
    · intro h; exact absurd (Finset.mem_univ k) h
  · rw [if_neg hl]
    refine Finset.sum_eq_zero (fun k' _ => ?_)
    rw [if_neg]
    rw [resultIdx?_rows]
    intro h
    apply hl
    cases hr : landRow N idx e with
    | none => rw [hr] at h; exact absurd h (by simp)
    | some i' =>
      rw [hr] at h
      exact congrArg some (ix2_inj (Option.some.inj h)).1

end Rows

/-! ## A vector operand -/

/-- A rank-1 index set is its one coordinate's range … -/
def idxEquiv1 {n : Nat} : (⟨1, ![n]⟩ : Shape).Idx ≃ Fin n where
  toFun j := j 0
  invFun a := ix1 a
  left_inv j := (eq_ix1 j).symm
  right_inv _ := rfl

/-- … so a sum over it is the sum over the coordinate. -/
theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]
  rfl

/-- Two rank-1 indices given by their coordinate are equal only when the coordinates are. -/
theorem ix1_inj {n : Nat} {a a' : Fin n} (h : ix1 a = ix1 a') : a = a' := by
  have h0 := congrFun h (⟨0, by decide⟩ : Fin 1)
  exact h0

section Vec
variable {N R w : Nat} (wf : ScatterDims.WF ⟨1, ![N]⟩ ⟨2, ![R, 1]⟩ ⟨1, ![R]⟩ [] [0] [0] 1)

/-- On the operand's one axis the window starts at the row number idx[e, 0], read signed. -/
theorem vec_start0 (idx : IVec ⟨2, ![R, 1]⟩ w) (e : Fin R) :
    (vecScatterDims N R wf).start (ix1 e) idx (⟨0, by decide⟩ : Fin 1) = (idx (ix2 e ⟨0, Nat.one_pos⟩)).toInt := by
  unfold ScatterDims.start
  rw [dif_pos (show (⟨0, by decide⟩ : Fin 1) ∈ (vecScatterDims N R wf).scatterDimsToOperandDims from
    List.mem_singleton.mpr rfl)]
  have hsi : (vecScatterDims N R wf).siIdx (ix1 e)
      ⟨List.idxOf (⟨0, by decide⟩ : Fin 1) (vecScatterDims N R wf).scatterDimsToOperandDims,
        List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]

/-- The operand's one axis is inserted: its window coordinate is 0. -/
theorem vec_window0 (e : Fin R) :
    (vecScatterDims N R wf).window (ix1 e) (⟨0, by decide⟩ : Fin 1) = 0 := rfl

/-- Update element e lands on the operand element row e lands on, when it lands at all. -/
theorem resultIdx?_vec (idx : IVec ⟨2, ![R, 1]⟩ w) (e : Fin R) :
    (vecScatterDims N R wf).resultIdx? (ix1 e) idx = (landRow N idx e).map (fun i => ix1 i) := by
  have hs0 := vec_start0 wf idx e
  have hw0 := vec_window0 wf e
  unfold ScatterDims.resultIdx? landRow
  by_cases h : 0 ≤ (idx (ix2 e ⟨0, Nat.one_pos⟩)).toInt ∧ (idx (ix2 e ⟨0, Nat.one_pos⟩)).toInt < N
  · have hall : ∀ a : Fin 1, 0 ≤ (vecScatterDims N R wf).start (ix1 e) idx a + (vecScatterDims N R wf).window (ix1 e) a ∧
        (vecScatterDims N R wf).start (ix1 e) idx a + (vecScatterDims N R wf).window (ix1 e) a
          < (⟨1, ![N]⟩ : Shape).size a := by
      intro a
      match a with
      | ⟨0, _⟩ =>
        rw [hs0, hw0]
        show _ ∧ _ < ((N : Nat) : Int)
        omega
    rw [dif_pos hall, dif_pos h]
    show _ = some _
    congr 1
    funext a
    refine Fin.ext ?_
    match a with
    | ⟨0, _⟩ =>
      show ((vecScatterDims N R wf).start (ix1 e) idx (⟨0, by decide⟩ : Fin 1) + (vecScatterDims N R wf).window (ix1 e) (⟨0, by decide⟩ : Fin 1)).toNat = _
      rw [hs0, hw0]
      simp
  · rw [dif_neg h, dif_neg]
    · rfl
    · intro hall
      have h0 := hall (⟨0, by decide⟩ : Fin 1)
      rw [hs0, hw0] at h0
      apply h
      have h0' : 0 ≤ (idx (ix2 e ⟨0, Nat.one_pos⟩)).toInt + ((0 : Nat) : Int) ∧
          (idx (ix2 e ⟨0, Nat.one_pos⟩)).toInt + ((0 : Nat) : Int) < ((N : Nat) : Int) := h0
      omega

/-- The accumulating vector scatter at i: the operand there plus the updates that land on i. -/
theorem scatterAdd_vec_apply (x : (⟨1, ![N]⟩ : Shape).Idx → EReal) (idx : IVec ⟨2, ![R, 1]⟩ w)
    (upd : (⟨1, ![R]⟩ : Shape).Idx → EReal) (i : Fin N) :
    Host.scatterAdd (F := Ideal) (φ := .f32) (vecScatterDims N R wf) x idx upd (ix1 i)
      = x (ix1 i) + ∑ e ∈ Finset.univ.filter (fun e : Fin R => landRow N idx e = some i), upd (ix1 e) := by
  show x (ix1 i) + ∑ j ∈ Finset.univ.filter
      (fun j => (vecScatterDims N R wf).resultIdx? j idx = some (ix1 i)), upd j = _
  congr 1
  rw [Finset.sum_filter, Finset.sum_filter, sum_idx1]
  refine Finset.sum_congr rfl (fun e _ => ?_)
  by_cases hl : landRow N idx e = some i
  · rw [if_pos hl, if_pos]
    rw [resultIdx?_vec, hl]; rfl
  · rw [if_neg hl, if_neg]
    rw [resultIdx?_vec]
    intro h
    apply hl
    cases hr : landRow N idx e with
    | none => rw [hr] at h; exact absurd h (by simp)
    | some i' =>
      rw [hr] at h
      exact congrArg some (ix1_inj (Option.some.inj h))

end Vec

end Idealize.ShloMosaic.ValueIdx

end
-- ==== Proof.KEdges.lean ====
/-
  The two maps that turn the edge list into sums over edges. For an array of 600000 row numbers (one per edge, as
  signed 32-bit words):
    landD  — where edge e's update lands in a 50000-row array: its row number when that is in [0, 50000), nothing
             otherwise (an accumulating scatter drops an update whose row is outside the array);
    srcRow — which row edge e gathers: its row number clamped into [0, 49999] (a gather clamps its start index).
-/
import proofs.«117566_j50190987821456_2_alg».proof.Proof.LibGatherRows
import proofs.«117566_j50190987821456_2_alg».proof.Proof.LibScatterAddRows

noncomputable section

namespace Cert.Edges

open Idealize.ShloMosaic Idealize.ShloMosaic.ValueIdx

/-- The row of a 50000-row array that edge e's update is added into, if any. -/
def landD (idx : IVec ⟨2, ![600000, 1]⟩ 32) : Fin 600000 → Option (Fin 50000) := fun e => landRow 50000 idx e

/-- The row of a 50000-row table that edge e reads. -/
def srcRow (idx : IVec ⟨2, ![600000, 1]⟩ 32) : Fin 600000 → Fin 50000 := fun e =>
  ⟨min (idx (ix2 e ⟨0, Nat.one_pos⟩)).toInt.toNat (50000 - 1), by omega⟩

end Cert.Edges

end
-- ==== Proof.SageSpec.lean ====
/-
  Two-layer mean-aggregation graph convolution, as index-level formulas over the extended reals.

  Nodes ι, edges ε. Every edge e has a source row r e (a node) and a landing row D e (a node, or none when the
  destination index falls outside the node range: such an edge contributes nothing). For a node array v,
      agg v i k = ∑ over the edges e landing on i of v (r e) k
  is the sum of the sources' features over the edges into i, and cinv i is the reciprocal of max(number of edges
  landing on i, 1), a real number. One layer is  lin(mean) + lin(self) + bias  with mean = agg · cinv.

  The two programs differ in the second layer only: one projects the hidden features by the left weight BEFORE
  aggregating (outPre), the other aggregates the hidden features and projects afterwards (outPost). For real hidden
  features, real left weight and real cinv the two agree, by distributivity in ℝ.
-/
import Idealize.ShloMosaic.PureOps.Ideal

noncomputable section

namespace Sage

open Finset

variable {ι ε α β γ : Type} [Fintype ε] [Fintype α] [Fintype β] [DecidableEq ι]

/-- The edges landing on node i. -/
def into (D : ε → Option ι) (i : ι) : Finset ε := univ.filter (fun e => D e = some i)

/-- Sum over the edges into i of the source node's feature k. -/
def agg {κ : Type} (D : ε → Option ι) (r : ε → ι) (v : ι → κ → EReal) (i : ι) (k : κ) : EReal :=
  ∑ e ∈ into D i, v (r e) k

/-- Reciprocal of max(in-degree, 1), a real number read in the extended reals. -/
def cinv (D : ε → Option ι) (i : ι) : EReal := ((1 / max ((into D i).card : ℝ) 1 : ℝ) : EReal)

/-- Hidden features: relu(mean · W1l + x · W1r + b1), mean = agg x · cinv. -/
def hid (D : ε → Option ι) (r : ε → ι) (x : ι → α → EReal) (W1l W1r : α → β → EReal) (b1 : β → EReal)
    (i : ι) (k : β) : EReal :=
  max ((∑ a, (agg D r x i a * cinv D i) * W1l a k + ∑ a, x i a * W1r a k) + b1 k) 0

/-- Second layer, projecting by W2l BEFORE the aggregation. -/
def outPre (D : ε → Option ι) (r : ε → ι) (h : ι → β → EReal) (W2l W2r : β → γ → EReal) (b2 : γ → EReal)
    (i : ι) (j : γ) : EReal :=
  (∑ k, h i k * W2r k j + agg D r (fun s j' => ∑ k, h s k * W2l k j') i j * cinv D i) + b2 j

/-- Second layer, aggregating first and projecting the mean by W2l. -/
def outPost (D : ε → Option ι) (r : ε → ι) (h : ι → β → EReal) (W2l W2r : β → γ → EReal) (b2 : γ → EReal)
    (i : ι) (j : γ) : EReal :=
  (∑ k, (agg D r h i k * cinv D i) * W2l k j + ∑ k, h i k * W2r k j) + b2 j

end Sage

end
-- ==== Proof.SageAlgebra.lean ====
/-
  Real-valuedness and the algebra of the mean aggregation over the extended reals.

  An extended real is "real" (IsR) when it is the image of a real number. Sums, products and maxima of real
  extended reals are real, so the aggregation, the reciprocal count and the hidden features of the graph
  convolution are real whenever the inputs are. On real data, projecting by the left weight before averaging
  over the incoming edges equals averaging first and projecting afterwards: this is distributivity and the
  exchange of two finite sums in ℝ, transported along the coercion ℝ → EReal (which preserves +, * and finite
  sums). The self term and the bias may be arbitrary extended reals: only commutativity of + touches them.
-/
import proofs.«117566_j50190987821456_2_alg».proof.Proof.SageSpec

noncomputable section

namespace Sage

open Finset

variable {ι ε α β γ : Type} [Fintype ε] [Fintype α] [Fintype β] [DecidableEq ι]

/-- an extended real that is a real number -/
def IsR (x : EReal) : Prop := ∃ r : ℝ, x = (r : EReal)

theorem IsR.coe (r : ℝ) : IsR (r : EReal) := ⟨r, rfl⟩

theorem IsR.zero : IsR 0 := ⟨0, EReal.coe_zero.symm⟩

theorem IsR.one : IsR 1 := ⟨1, EReal.coe_one.symm⟩

theorem IsR.add {x y : EReal} (hx : IsR x) (hy : IsR y) : IsR (x + y) := by
  obtain ⟨a, rfl⟩ := hx
  obtain ⟨b, rfl⟩ := hy
  exact ⟨a + b, (EReal.coe_add a b).symm⟩

theorem IsR.mul {x y : EReal} (hx : IsR x) (hy : IsR y) : IsR (x * y) := by
  obtain ⟨a, rfl⟩ := hx
  obtain ⟨b, rfl⟩ := hy
  exact ⟨a * b, (EReal.coe_mul a b).symm⟩

/-- the coercion ℝ → EReal is monotone, hence commutes with the binary maximum -/
theorem coe_max (a b : ℝ) : ((Max.max a b : ℝ) : EReal) = Max.max (a : EReal) (b : EReal) :=
  EReal.coe_strictMono.monotone.map_max

theorem IsR.max {x y : EReal} (hx : IsR x) (hy : IsR y) : IsR (Max.max x y) := by
  obtain ⟨a, rfl⟩ := hx
  obtain ⟨b, rfl⟩ := hy
  exact ⟨Max.max a b, (coe_max a b).symm⟩

/-- the coercion ℝ → EReal commutes with finite sums -/
theorem sum_coe {κ : Type*} (s : Finset κ) (f : κ → ℝ) :
    (∑ k ∈ s, ((f k : ℝ) : EReal)) = ((∑ k ∈ s, f k : ℝ) : EReal) := by
  classical
  refine Finset.induction_on s (by simp) ?_
  intro a s ha ih
  rw [Finset.sum_insert ha, Finset.sum_insert ha, ih, EReal.coe_add]

theorem IsR.sum {κ : Type*} (s : Finset κ) (f : κ → EReal) (hf : ∀ k ∈ s, IsR (f k)) :
    IsR (∑ k ∈ s, f k) := by
  classical
  revert hf
  refine Finset.induction_on s (fun _ => by simpa using IsR.zero) ?_
  intro a s ha ih hf
  rw [Finset.sum_insert ha]
  exact IsR.add (hf a (Finset.mem_insert_self a s))
    (ih (fun k hk => hf k (Finset.mem_insert_of_mem hk)))

/-- counting a finite set by summing ones, in the extended reals -/
theorem card_sum {κ : Type*} (s : Finset κ) : (∑ _e ∈ s, (1 : EReal)) = ((s.card : ℝ) : EReal) := by
  have h := sum_coe s (fun _ => (1 : ℝ))
  simp only [EReal.coe_one] at h
  rw [h, Finset.sum_const, nsmul_eq_mul, mul_one]

/-- dividing by max(count,1) in the extended reals is multiplying by the real reciprocal -/
theorem div_count {κ : Type*} (s : Finset κ) (a : EReal) :
    Idealize.ShloMosaic.Ideal.div a (Max.max ((s.card : ℝ) : EReal) 1)
      = a * ((1 / Max.max (s.card : ℝ) 1 : ℝ) : EReal) := by
  have h1 : Max.max ((s.card : ℝ) : EReal) 1 = ((Max.max (s.card : ℝ) 1 : ℝ) : EReal) := by
    rw [coe_max, EReal.coe_one]
  have h0 : Max.max (s.card : ℝ) 1 ≠ 0 :=
    ne_of_gt (lt_of_lt_of_le one_pos (le_max_right _ _))
  rw [h1, Idealize.ShloMosaic.Ideal.div_coe h0]

theorem cinv_isR (D : ε → Option ι) (i : ι) : IsR (cinv D i) := ⟨_, rfl⟩

theorem agg_isR {κ : Type} (D : ε → Option ι) (r : ε → ι) (v : ι → κ → EReal) (i : ι) (k : κ)
    (hv : ∀ s k, IsR (v s k)) : IsR (agg D r v i k) :=
  IsR.sum _ _ (fun e _ => hv (r e) k)

theorem hid_isR (D : ε → Option ι) (r : ε → ι) (x : ι → α → EReal) (W1l W1r : α → β → EReal) (b1 : β → EReal)
    (hx : ∀ i a, IsR (x i a)) (hl : ∀ a k, IsR (W1l a k)) (hr : ∀ a k, IsR (W1r a k)) (hb : ∀ k, IsR (b1 k))
    (i : ι) (k : β) : IsR (hid D r x W1l W1r b1 i k) := by
  unfold hid
  refine IsR.max (IsR.add (IsR.add ?_ ?_) (hb k)) IsR.zero
  · exact IsR.sum _ _ (fun a _ => IsR.mul (IsR.mul (agg_isR D r x i a hx) (cinv_isR D i)) (hl a k))
  · exact IsR.sum _ _ (fun a _ => IsR.mul (hx i a) (hr a k))

/-- The core identity: on real features and a real weight, (Σ over edges of the projected source rows) times the
    reciprocal count equals the projection of (Σ over edges of the source rows) times the reciprocal count. -/
theorem agg_proj_comm (D : ε → Option ι) (r : ε → ι) (h : ι → β → EReal) (W2l : β → γ → EReal)
    (hh : ∀ s k, IsR (h s k)) (hW : ∀ k j, IsR (W2l k j)) (i : ι) (j : γ) :
    agg D r (fun s j' => ∑ k, h s k * W2l k j') i j * cinv D i
      = ∑ k, (agg D r h i k * cinv D i) * W2l k j := by
  choose hr hhr using hh
  choose Wr hWr using hW
  unfold agg cinv
  generalize (1 / Max.max ((into D i).card : ℝ) 1 : ℝ) = c
  have L : (∑ e ∈ into D i, ∑ k, h (r e) k * W2l k j)
      = ((∑ e ∈ into D i, ∑ k, hr (r e) k * Wr k j : ℝ) : EReal) := by
    rw [← sum_coe]
    refine Finset.sum_congr rfl (fun e _ => ?_)
    rw [← sum_coe]
    refine Finset.sum_congr rfl (fun k _ => ?_)
    rw [hhr, hWr, EReal.coe_mul]
  have R : (∑ k, ((∑ e ∈ into D i, h (r e) k) * (c : EReal)) * W2l k j)
      = ((∑ k, ((∑ e ∈ into D i, hr (r e) k) * c) * Wr k j : ℝ) : EReal) := by
    rw [← sum_coe]
    refine Finset.sum_congr rfl (fun k _ => ?_)
    rw [EReal.coe_mul, EReal.coe_mul, ← sum_coe, hWr]
    congr 2
    exact Finset.sum_congr rfl (fun e _ => hhr (r e) k)
  rw [L, R, ← EReal.coe_mul]
  congr 1
  rw [Finset.sum_comm, Finset.sum_mul]
  refine Finset.sum_congr rfl (fun k _ => ?_)
  rw [← Finset.sum_mul, mul_right_comm]

/-- Projecting before the aggregation equals aggregating and projecting afterwards, for real hidden features and a
    real left weight. The self term and the bias are arbitrary extended reals. -/
theorem outPre_eq_outPost (D : ε → Option ι) (r : ε → ι) (h : ι → β → EReal) (W2l W2r : β → γ → EReal)
    (b2 : γ → EReal) (hh : ∀ s k, IsR (h s k)) (hW : ∀ k j, IsR (W2l k j)) (i : ι) (j : γ) :
    outPre D r h W2l W2r b2 i j = outPost D r h W2l W2r b2 i j := by
  unfold outPre outPost
  rw [agg_proj_comm D r h W2l hh hW i j, add_comm (∑ k, h i k * W2r k j)]

end Sage

end
-- ==== Proof.KHost.lean ====
/-
  The host operations around the two kernel calls, as named terms of the argument arrays and read at an index, at
  the exact (extended-real) values.

  Before the first call the program splits the edge list into source and destination row numbers, counts the edges
  landing on each node and takes the reciprocal of max(count, 1), and sums, for every node, the feature rows of the
  sources of the edges landing on it (a row gather by the wrapped source numbers, then an accumulating row scatter
  by the destination numbers; the two format changes around the gather are the identity at the exact values).
  Between the calls it sums the projected rows in the same way. Read at an index these are the aggregation and the
  reciprocal count of the graph convolution's specification over the two edge maps landD, srcRow.
-/
import proofs.«117566_j50190987821456_2_alg».proof.Proof.Gen.KernelIdeal.Launch
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws
import proofs.«117566_j50190987821456_2_alg».proof.Proof.LibGatherRows
import proofs.«117566_j50190987821456_2_alg».proof.Proof.LibScatterAddRows
import proofs.«117566_j50190987821456_2_alg».proof.Proof.KEdges
import proofs.«117566_j50190987821456_2_alg».proof.Proof.SageAlgebra
import proofs.«117566_j50190987821456_2_alg».proof.Proof.SageSpec

noncomputable section

namespace Cert.KernelIdeal.KHost

open Cert.KernelIdeal Cert.KernelIdeal.Gen Idealize.ShloMosaic Idealize.ShloMosaic.ValueIdx Cert.Edges

/-! ## The terms -/

/-- Source row numbers of the edges: row 0 of the edge list, as a vector. -/
def srcVec (ei : IVec S2x600000 32) : IVec S600000 32 :=
  shapeCast S600000 (extractStridedSlice S1x600000 ![0, 0] ei slices_S2x600000_S1x600000_0_0) shapeCasts_S1x600000_S600000

/-- Destination row numbers of the edges: row 1 of the edge list, as a vector. -/
def dstVec (ei : IVec S2x600000 32) : IVec S600000 32 :=
  shapeCast S600000 (extractStridedSlice S1x600000 ![1, 0] ei slices_S2x600000_S1x600000_1_0) shapeCasts_S1x600000_S600000

/-- A vector of row numbers as a one-column index array. -/
def colIdx (v : IVec S600000 32) : IVec S600000x1 32 :=
  broadcastInDim S600000x1 ![0] bcast_S600000_S600000x1_0 v

/-- A vector of row numbers with the negative ones wrapped by the table's height, as a one-column index array. -/
def wrapIdx (v : IVec S600000 32) : IVec S600000x1 32 :=
  broadcastInDim S600000x1 ![0] bcast_S600000_S600000x1_0
    (select (cmpi .slt v (broadcastInDim S600000 ![] bcast_S_S600000 (constantI S_ 32 0#32)))
      (addi v (broadcastInDim S600000 ![] bcast_S_S600000 (constantI S_ 32 50000#32))) v)

/-- The destination rows as scatter indices. -/
def dstIdx (ei : IVec S2x600000 32) : IVec S600000x1 32 := colIdx (dstVec ei)

/-- The source rows, wrapped, as gather indices. -/
def srcIdx (ei : IVec S2x600000 32) : IVec S600000x1 32 := wrapIdx (srcVec ei)

/-- Reciprocal of max(in-degree, 1) per node, as a column. -/
def dinvOf (di : IVec S600000x1 32) : FVec Ideal S50000x1 .f32 :=
  shapeCast S50000x1
    (Host.divf (F := Ideal) (broadcastInDim S50000 ![] bcast_S_S50000 (constant (F := Ideal) S_ .f32 0x3F800000#32))
      (maximumf (F := Ideal)
        (Host.scatterAdd (F := Ideal) scatter_S50000_S600000x1_S600000_n_0_0_1
          (broadcastInDim S50000 ![] bcast_S_S50000 (constant (F := Ideal) S_ .f32 0x00000000#32)) di
          (broadcastInDim S600000 ![] bcast_S_S600000 (constant (F := Ideal) S_ .f32 0x3F800000#32)))
        (broadcastInDim S50000 ![] bcast_S_S50000 (constant (F := Ideal) S_ .f32 0x3F800000#32))))
    shapeCasts_S50000_S50000x1

/-- The reciprocal counts of the program's edge list. -/
def dinvK (ei : IVec S2x600000 32) : FVec Ideal S50000x1 .f32 := dinvOf (dstIdx ei)

/-- Sum over incoming edges of the source rows of a 128-wide table. -/
def agg128 (x : FVec Ideal S50000x128 .f32) (si di : IVec S600000x1 32) : FVec Ideal S50000x128 .f32 :=
  Host.scatterAdd (F := Ideal) scatter_S50000x128_S600000x1_S600000x128_1_0_0_1
    (broadcastInDim S50000x128 ![] bcast_S_S50000x128 (constant (F := Ideal) S_ .f32 0x00000000#32)) di
    (extf (F := Ideal) .f32 (Host.gather gather_S50000x128_S600000x1_S600000x128_1_0_n_n_0_1_1128
      (truncf (F := Ideal) .bf16 x bitsLt_bf16_f32) si) bitsLt_bf16_f32)

/-- The first layer's aggregated features. -/
def agg1K (x : FVec Ideal S50000x128 .f32) (ei : IVec S2x600000 32) : FVec Ideal S50000x128 .f32 :=
  agg128 x (srcIdx ei) (dstIdx ei)

/-- Sum over incoming edges of the source rows of a 64-wide table. -/
def agg64 (p : FVec Ideal S50000x64 .f32) (si di : IVec S600000x1 32) : FVec Ideal S50000x64 .f32 :=
  Host.scatterAdd (F := Ideal) scatter_S50000x64_S600000x1_S600000x64_1_0_0_1
    (broadcastInDim S50000x64 ![] bcast_S_S50000x64 (constant (F := Ideal) S_ .f32 0x00000000#32)) di
    (extf (F := Ideal) .f32 (Host.gather gather_S50000x64_S600000x1_S600000x64_1_0_n_n_0_1_164
      (truncf (F := Ideal) .bf16 p bitsLt_bf16_f32) si) bitsLt_bf16_f32)

/-- The second layer's aggregated projections, from the source and destination vectors. -/
def aggpK (p : FVec Ideal S50000x64 .f32) (sv dv : IVec S600000 32) : FVec Ideal S50000x64 .f32 :=
  agg64 p (wrapIdx sv) (colIdx dv)

/-- The first bias as a row. -/
def b1rowK (b1 : FVec Ideal S128 .f32) : FVec Ideal S1x128 .f32 := shapeCast S1x128 b1 shapeCasts_S128_S1x128
/-- The second bias as a row. -/
def b2rowK (b2 : FVec Ideal S64 .f32) : FVec Ideal S1x64 .f32 := shapeCast S1x64 b2 shapeCasts_S64_S1x64

/-! ## Read at an index -/

/-- The index array's entry a row gather reads for result element (e, k) is entry (e, 0). -/
theorem rowsIdx_at {R D : Nat} (e : Fin R) (k : Fin D) : rowsIdx (ix2 e k) = ix2 e ⟨0, Nat.one_pos⟩ := by
  funext a
  match a with
  | ⟨0, _⟩ => rfl
  | ⟨1, _⟩ => rfl

/-- A row gather of a table with 50000 rows by 600000 indices, at (e, k): the table's row srcRow e, column k. -/
theorem gather_rows_at {α : Type} {D : Nat}
    (wf : GatherDims.WF ⟨2, ![50000, D]⟩ ⟨2, ![600000, 1]⟩ ⟨2, ![600000, D]⟩ [1] [0] [] [0] [] 1 ![1, D])
    (x : (⟨2, ![50000, D]⟩ : Shape).Idx → α) (idx : IVec ⟨2, ![600000, 1]⟩ 32) (e : Fin 600000) (k : Fin D) :
    Host.gather (rowsDims 50000 D 600000 wf) x idx (ix2 e k) = x (ix2 (srcRow idx e) k) := by
  rw [gather_rows_apply (by decide) wf x idx (ix2 e k)]
  refine congrArg x ?_
  refine congrArg (fun r => ix2 r k) (Fin.ext ?_)
  show min (idx (rowsIdx (ix2 e k))).toInt.toNat (50000 - 1) = min (idx (ix2 e ⟨0, Nat.one_pos⟩)).toInt.toNat (50000 - 1)
  rw [rowsIdx_at]

/-- An [a] array cast to [a, 1] reads, at (i, u), the operand at i, whatever the unit coordinate u. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The 128-wide aggregation at (i, k): the sum over the edges landing on i of the source row's entry k. -/
theorem agg128_apply (x : FVec Ideal S50000x128 .f32) (si di : IVec S600000x1 32) (i : Fin 50000) (k : Fin 128) :
    agg128 x si di (ix2 i k) = Sage.agg (landD di) (srcRow si) (fun s a => x (ix2 s a)) i k := by
  unfold agg128
  refine (scatterAdd_rows_apply (N := 50000) (D := 128) (R := 600000)
    Facts₀.scatter_S50000x128_S600000x1_S600000x128_1_0_0_1_wf _ di _ i k).trans ?_
  show (Ideal.ofBits .f32 0x00000000#32 : EReal) + _ = _
  rw [Ideal.ofBits_zero_f32, zero_add]
  refine Finset.sum_congr rfl (fun e _ => ?_)
  exact gather_rows_at (α := EReal) Facts₀.gather_S50000x128_S600000x1_S600000x128_1_0_n_n_0_1_1128_wf x si e k

/-- The 64-wide aggregation at (i, j). -/
theorem agg64_apply (p : FVec Ideal S50000x64 .f32) (si di : IVec S600000x1 32) (i : Fin 50000) (j : Fin 64) :
    agg64 p si di (ix2 i j) = Sage.agg (landD di) (srcRow si) (fun s a => p (ix2 s a)) i j := by
  unfold agg64
  refine (scatterAdd_rows_apply (N := 50000) (D := 64) (R := 600000)
    Facts₀.scatter_S50000x64_S600000x1_S600000x64_1_0_0_1_wf _ di _ i j).trans ?_
  show (Ideal.ofBits .f32 0x00000000#32 : EReal) + _ = _
  rw [Ideal.ofBits_zero_f32, zero_add]
  refine Finset.sum_congr rfl (fun e _ => ?_)
  exact gather_rows_at (α := EReal) Facts₀.gather_S50000x64_S600000x1_S600000x64_1_0_n_n_0_1_164_wf p si e j

/-- The number of edges landing on node i, counted by an accumulating scatter of ones into zeros. -/
theorem count_apply (di : IVec S600000x1 32) (i : Fin 50000) :
    Host.scatterAdd (F := Ideal) scatter_S50000_S600000x1_S600000_n_0_0_1
        (broadcastInDim S50000 ![] bcast_S_S50000 (constant (F := Ideal) S_ .f32 0x00000000#32)) di
        (broadcastInDim S600000 ![] bcast_S_S600000 (constant (F := Ideal) S_ .f32 0x3F800000#32)) (ix1 i)
      = (((Sage.into (landD di) i).card : ℝ) : EReal) := by
  refine (scatterAdd_vec_apply (N := 50000) (R := 600000)
    Facts₀.scatter_S50000_S600000x1_S600000_n_0_0_1_wf _ di _ i).trans ?_
  show (Ideal.ofBits .f32 0x00000000#32 : EReal)
      + ∑ _e ∈ Sage.into (landD di) i, (Ideal.ofBits .f32 0x3F800000#32 : EReal) = _
  rw [Ideal.ofBits_zero_f32, zero_add, Ideal.ofBits_one_f32, Sage.card_sum]

/-- The reciprocal count at (i, 0). -/
theorem dinvOf_apply (di : IVec S600000x1 32) (i : Fin 50000) :
    dinvOf di (ix2 i (0 : Fin 1)) = Sage.cinv (landD di) i := by
  unfold dinvOf
  rw [shapeCast_a_a1_apply, hostDivf_apply, maximumf_apply, count_apply, broadcastInDim_scalar_apply, constant_apply,
    Ideal.ofBits_one_f32, Sage.div_count, one_mul]
  rfl

/-- The first layer's aggregated features at (i, k). -/
theorem agg1K_apply (x : FVec Ideal S50000x128 .f32) (ei : IVec S2x600000 32) (i : Fin 50000) (k : Fin 128) :
    agg1K x ei (ix2 i k) = Sage.agg (landD (dstIdx ei)) (srcRow (srcIdx ei)) (fun s a => x (ix2 s a)) i k :=
  agg128_apply x (srcIdx ei) (dstIdx ei) i k

/-- The second layer's aggregated projections at (i, j), over the program's source and destination vectors. -/
theorem aggpK_apply (p : FVec Ideal S50000x64 .f32) (ei : IVec S2x600000 32) (i : Fin 50000) (j : Fin 64) :
    aggpK p (srcVec ei) (dstVec ei) (ix2 i j)
      = Sage.agg (landD (dstIdx ei)) (srcRow (srcIdx ei)) (fun s j' => p (ix2 s j')) i j :=
  agg64_apply p (srcIdx ei) (dstIdx ei) i j

/-- The reciprocal counts at (i, 0). -/
theorem dinvK_apply (ei : IVec S2x600000 32) (i : Fin 50000) :
    dinvK ei (ix2 i (0 : Fin 1)) = Sage.cinv (landD (dstIdx ei)) i :=
  dinvOf_apply (dstIdx ei) i

/-- The first bias row at (0, k). -/
theorem b1rowK_apply (b1 : FVec Ideal S128 .f32) (k : Fin 128) : b1rowK b1 (ix2 (0 : Fin 1) k) = b1 (ix1 k) :=
  shapeCast_a_1a_apply b1 _ (0 : Fin 1) k

/-- The second bias row at (0, j). -/
theorem b2rowK_apply (b2 : FVec Ideal S64 .f32) (j : Fin 64) : b2rowK b2 (ix2 (0 : Fin 1) j) = b2 (ix1 j) :=
  shapeCast_a_1a_apply b2 _ (0 : Fin 1) j

/-! ## What the two stretches leave in the buffers they compute -/

section After
variable (W : Valuation τ sig (Elt Ideal))

theorem after0_v24 :
    (StableHlo.after (hostOps0 (F := Ideal)) W (Proc.devRef .tc main_v24) : S50000x128.Idx → EReal)
      = agg1K (W (Proc.devRef .tc main_arg0)) (W (Proc.devRef .tc main_arg1)) := by
  dsimp only [hostOps0]
  after_results_simp
  rfl

theorem after0_v12 :
    (StableHlo.after (hostOps0 (F := Ideal)) W (Proc.devRef .tc main_v12) : S50000x1.Idx → EReal)
      = dinvK (W (Proc.devRef .tc main_arg1)) := by
  dsimp only [hostOps0]
  after_results_simp
  rfl

theorem after0_v25 :
    (StableHlo.after (hostOps0 (F := Ideal)) W (Proc.devRef .tc main_v25) : S1x128.Idx → EReal)
      = b1rowK (W (Proc.devRef .tc main_arg4)) := by
  dsimp only [hostOps0]
  after_results_simp
  rfl

theorem after0_v1 :
    (StableHlo.after (hostOps0 (F := Ideal)) W (Proc.devRef .tc main_v1) : S600000.Idx → BitVec 32)
      = srcVec (W (Proc.devRef .tc main_arg1)) := by
  dsimp only [hostOps0]
  after_results_simp
  rfl

theorem after0_v3 :
    (StableHlo.after (hostOps0 (F := Ideal)) W (Proc.devRef .tc main_v3) : S600000.Idx → BitVec 32)
      = dstVec (W (Proc.devRef .tc main_arg1)) := by
  dsimp only [hostOps0]
  after_results_simp
  rfl

theorem after1_v38 :
    (StableHlo.after (hostOps1 (F := Ideal)) W (Proc.devRef .tc main_v38) : S50000x64.Idx → EReal)
      = aggpK (W (Proc.devRef .tc main_v26_1)) (W (Proc.devRef .tc main_v1)) (W (Proc.devRef .tc main_v3)) := by
  dsimp only [hostOps1]
  after_results_simp
  rfl

theorem after1_v39 :
    (StableHlo.after (hostOps1 (F := Ideal)) W (Proc.devRef .tc main_v39) : S1x64.Idx → EReal)
      = b2rowK (W (Proc.devRef .tc main_arg7)) := by
  dsimp only [hostOps1]
  after_results_simp
  rfl

end After

end Cert.KernelIdeal.KHost

end
-- ==== Proof.KValue.lean ====
/-
  The kernel program's result at an index, in the specification's form.

  The result buffer is the second-layer output formula applied to the hidden-feature formula, over buffers the host
  operations compute: the aggregated features, the reciprocal counts, the two bias rows, and the aggregated
  projections. Read at an index each of these is the aggregation, the reciprocal count or a bias entry of the graph
  convolution's specification over the two edge maps, so the result at (i, j) is the specification's second layer
  (projecting before aggregating) of its hidden features, at the launch arguments.
-/
import proofs.«117566_j50190987821456_2_alg».proof.Proof.KChain
import proofs.«117566_j50190987821456_2_alg».proof.Proof.KHost
import proofs.«117566_j50190987821456_2_alg».proof.Proof.KEdges
import proofs.«117566_j50190987821456_2_alg».proof.Proof.SageSpec

set_option maxRecDepth 16384

noncomputable section

namespace Cert.KernelIdeal.KValue

open Cert.KernelIdeal Cert.KernelIdeal.Gen Cert.KernelIdeal.KBlocks Cert.KernelIdeal.KHost Cert.Edges
open Idealize.ShloMosaic Idealize.ShloMosaic.TcCoe Idealize.ShloMosaic.ValueIdx Idealize.SL.Sem

/-! ## The array formulas at an index, in the specification's form -/

section Arrays

variable (x : FVec Ideal S50000x128 .f32) (ei : IVec S2x600000 32) (Wl Wr : FVec Ideal S128x128 .f32)
  (b1 : FVec Ideal S128 .f32) (W2l W2r : FVec Ideal S128x64 .f32) (b2 : FVec Ideal S64 .f32)

/-- The hidden-feature array over the host-computed aggregation, reciprocal counts and bias row, at (s, k). -/
theorem hid_apply (s : Fin 50000) (k : Fin 128) :
    hidArr (agg1K x ei) (dinvK ei) x Wl Wr (b1rowK b1) (ix2 s k)
      = Sage.hid (landD (dstIdx ei)) (srcRow (srcIdx ei)) (fun s a => x (ix2 s a)) (fun a k => Wl (ix2 a k))
          (fun a k => Wr (ix2 a k)) (fun k => b1 (ix1 k)) s k := by
  show max (((∑ c : Fin 128, (agg1K x ei (ix2 s c) * dinvK ei (ix2 s (0 : Fin 1))) * Wl (ix2 c k))
      + (∑ c : Fin 128, x (ix2 s c) * Wr (ix2 c k))) + b1rowK b1 (ix2 (0 : Fin 1) k)) 0 = _
  simp only [agg1K_apply, dinvK_apply, b1rowK_apply]
  rfl

/-- The projection array at (s, j'). -/
theorem proj_apply (s : Fin 50000) (j' : Fin 64) :
    projArr (agg1K x ei) (dinvK ei) x Wl Wr (b1rowK b1) W2l (ix2 s j')
      = ∑ k : Fin 128, Sage.hid (landD (dstIdx ei)) (srcRow (srcIdx ei)) (fun s a => x (ix2 s a))
          (fun a k => Wl (ix2 a k)) (fun a k => Wr (ix2 a k)) (fun k => b1 (ix1 k)) s k * W2l (ix2 k j') := by
  show (∑ k : Fin 128, hidArr (agg1K x ei) (dinvK ei) x Wl Wr (b1rowK b1) (ix2 s k) * W2l (ix2 k j')) = _
  simp only [hid_apply]

/-- The result array over the host-computed buffers, at (i, j): the second layer projecting before aggregating. -/
theorem out_apply (i : Fin 50000) (j : Fin 64) :
    outArr (aggpK (projArr (agg1K x ei) (dinvK ei) x Wl Wr (b1rowK b1) W2l) (srcVec ei) (dstVec ei)) (dinvK ei)
        (hidArr (agg1K x ei) (dinvK ei) x Wl Wr (b1rowK b1)) W2r (b2rowK b2) (ix2 i j)
      = Sage.outPre (landD (dstIdx ei)) (srcRow (srcIdx ei))
          (Sage.hid (landD (dstIdx ei)) (srcRow (srcIdx ei)) (fun s a => x (ix2 s a)) (fun a k => Wl (ix2 a k))
            (fun a k => Wr (ix2 a k)) (fun k => b1 (ix1 k)))
          (fun k j => W2l (ix2 k j)) (fun k j => W2r (ix2 k j)) (fun j => b2 (ix1 j)) i j := by
  show ((∑ k : Fin 128, hidArr (agg1K x ei) (dinvK ei) x Wl Wr (b1rowK b1) (ix2 i k) * W2r (ix2 k j))
      + aggpK (projArr (agg1K x ei) (dinvK ei) x Wl Wr (b1rowK b1) W2l) (srcVec ei) (dstVec ei) (ix2 i j)
          * dinvK ei (ix2 i (0 : Fin 1))) + b2rowK b2 (ix2 (0 : Fin 1) j) = _
  simp only [aggpK_apply, dinvK_apply, b2rowK_apply, hid_apply, proj_apply]
  rfl

end Arrays

/-! ## The buffers the host operations compute, as terms of the launch arguments -/

variable (m : (ℓ : Loc nD τ sig) → Buf (Elt Ideal) ℓ) (ρ : Dev nD → PrngReg)

/-- The first layer's aggregated features, entering the first call. -/
theorem V1_main_v24 (c : Dev nD) : V1 m ρ c main_v24 = agg1K (m ((c : Thread nD τ).loc main_arg0)) (m ((c : Thread nD τ).loc main_arg1)) :=
  after0_v24 (W0 m ρ c)

/-- The reciprocal counts, entering the first call. -/
theorem V1_main_v12 (c : Dev nD) : V1 m ρ c main_v12 = dinvK (m ((c : Thread nD τ).loc main_arg1)) :=
  after0_v12 (W0 m ρ c)

/-- The first bias row, entering the first call. -/
theorem V1_main_v25 (c : Dev nD) : V1 m ρ c main_v25 = b1rowK (m ((c : Thread nD τ).loc main_arg4)) :=
  after0_v25 (W0 m ρ c)

/-- The source row numbers. -/
theorem V1_main_v1 (c : Dev nD) : V1 m ρ c main_v1 = srcVec (m ((c : Thread nD τ).loc main_arg1)) :=
  after0_v1 (W0 m ρ c)

/-- The destination row numbers. -/
theorem V1_main_v3 (c : Dev nD) : V1 m ρ c main_v3 = dstVec (m ((c : Thread nD τ).loc main_arg1)) :=
  after0_v3 (W0 m ρ c)

/-- The second layer's aggregated projections, entering the second call. -/
theorem V3_main_v38 (c : Dev nD) :
    V3 m ρ c main_v38 = aggpK (V2 m ρ c main_v26_1) (V2 m ρ c main_v1) (V2 m ρ c main_v3) :=
  after1_v38 (W2 m ρ c)

/-- The second bias row, entering the second call. -/
theorem V3_main_v39 (c : Dev nD) : V3 m ρ c main_v39 = b2rowK (V2 m ρ c main_arg7) :=
  after1_v39 (W2 m ρ c)

/-! ## The kernel program's result at an index -/

/-- The result buffer at (i, j) is the two-layer graph convolution of the launch arguments, its second layer
    projecting before aggregating, over the edge maps read off the edge list. -/
theorem kernel_value (c : Dev nD) (i : Fin 50000) (j : Fin 64) :
    W4 m ρ c (Proc.devRef .tc main_v40) (ix2 i j)
      = Sage.outPre (landD (dstIdx (m ((c : Thread nD τ).loc main_arg1)))) (srcRow (srcIdx (m ((c : Thread nD τ).loc main_arg1))))
          (Sage.hid (landD (dstIdx (m ((c : Thread nD τ).loc main_arg1)))) (srcRow (srcIdx (m ((c : Thread nD τ).loc main_arg1))))
            (fun (s : Fin 50000) (a : Fin 128) => (m ((c : Thread nD τ).loc main_arg0)) (ix2 s a))
            (fun (a : Fin 128) (k : Fin 128) => (m ((c : Thread nD τ).loc main_arg2)) (ix2 a k))
            (fun (a : Fin 128) (k : Fin 128) => (m ((c : Thread nD τ).loc main_arg3)) (ix2 a k))
            (fun (k : Fin 128) => (m ((c : Thread nD τ).loc main_arg4)) (ix1 k)))
          (fun (k : Fin 128) (j : Fin 64) => (m ((c : Thread nD τ).loc main_arg5)) (ix2 k j))
          (fun (k : Fin 128) (j : Fin 64) => (m ((c : Thread nD τ).loc main_arg6)) (ix2 k j))
          (fun (j : Fin 64) => (m ((c : Thread nD τ).loc main_arg7)) (ix1 j)) i j := by
  have h := KChain.result_eq m ρ c
  rw [V3_main_v38, KChain.p_eq, KChain.V2_main_v1, KChain.V2_main_v3, V1_main_v1, V1_main_v3, V3_main_v39,
    KChain.V2_main_arg7, KChain.V1_main_arg7, V1_main_v24, V1_main_v12, V1_main_v25] at h
  exact (congrFun h (ix2 i j)).trans (out_apply _ _ _ _ _ _ _ _ i j)

end Cert.KernelIdeal.KValue

end
-- ==== Proof.RefValue.lean ====
/-
  The reference program's value, read index by index.

  The reference is a two-layer mean-aggregation graph convolution. With src the first row of the edge list (a
  negative entry wrapped by the node count) and dst the second row, the aggregation of a node array v is the
  scatter-add, from zeros, into rows dst of the rows of v gathered at src; the in-degree is the scatter-add of ones
  into dst; one layer is  div(agg v, max(deg, 1)) · Wl + v · Wr + b,  and the hidden features are the relu of the
  first layer. This module names the index arrays and the gather / scatter stages as functions of the arguments,
  reads the result at an index (i, j) through the pointwise operations, the broadcasts and the two contractions,
  and then reads the gather and the scatter-adds at an index: a gathered row is the source node's row, a
  scatter-add from zeros is the sum over the edges landing on a node, the scatter-add of ones is their number, and
  the division by max(count, 1) is the product with the real reciprocal. The result is the specification's
  second layer (aggregate, then project) over the specification's hidden features.
-/
import proofs.«117566_j50190987821456_2_alg».proof.Defs
import proofs.«117566_j50190987821456_2_alg».proof.Proof.Gen.ReferenceIdeal.Read
import proofs.«117566_j50190987821456_2_alg».proof.Proof.SageSpec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost
import proofs.«117566_j50190987821456_2_alg».proof.Proof.LibGatherRows
import proofs.«117566_j50190987821456_2_alg».proof.Proof.LibScatterAddRows
import proofs.«117566_j50190987821456_2_alg».proof.Proof.SageAlgebra
import proofs.«117566_j50190987821456_2_alg».proof.Proof.KEdges

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-- The gather's start indices: row 0 of the edge list, a negative entry wrapped by the node count, as a column. -/
def srcIdx (ei : IVec S2x600000 32) : IVec S600000x1 32 := Read.val_main_v9 (F := Ideal) ei
/-- The scatter's indices: row 1 of the edge list, as a column. -/
def dstIdx (ei : IVec S2x600000 32) : IVec S600000x1 32 := Read.val_main_v12 (F := Ideal) ei

theorem v39_eq (ei : IVec S2x600000 32) : Read.val_main_v39 (F := Ideal) ei = srcIdx ei := rfl
theorem v16_eq (ei : IVec S2x600000 32) : Read.val_main_v16 (F := Ideal) ei = dstIdx ei := rfl
theorem v42_eq (ei : IVec S2x600000 32) : Read.val_main_v42 (F := Ideal) ei = dstIdx ei := rfl
theorem v46_eq (ei : IVec S2x600000 32) : Read.val_main_v46 (F := Ideal) ei = dstIdx ei := rfl

/-- The rows of a node array picked by the edges' sources. -/
def gath (v : FVec Ideal S50000x128 .f32) (ei : IVec S2x600000 32) : FVec Ideal S600000x128 .f32 :=
  Host.gather gather_S50000x128_S600000x1_S600000x128_1_0_n_n_0_1_1128 v (srcIdx ei)

/-- The picked rows summed into the edges' destinations, from a zero array. -/
def aggArr (v : FVec Ideal S50000x128 .f32) (ei : IVec S2x600000 32) : FVec Ideal S50000x128 .f32 :=
  Host.scatterAdd scatter_S50000x128_S600000x1_S600000x128_1_0_0_1 (Read.val_main_v11 (F := Ideal)) (dstIdx ei) (gath v ei)

/-- Ones summed into the edges' destinations, from a zero vector: the in-degrees. -/
def degArr (ei : IVec S2x600000 32) : FVec Ideal S50000 .f32 :=
  Host.scatterAdd scatter_S50000_S600000x1_S600000_n_0_0_1 (Read.val_main_v15 (F := Ideal)) (dstIdx ei) (Read.val_main_v14 (F := Ideal))

/-- The hidden features (the first layer after the relu). -/
def hidArr (x : FVec Ideal S50000x128 .f32) (ei : IVec S2x600000 32) (W1l W1r : FVec Ideal S128x128 .f32)
    (b1 : FVec Ideal S128 .f32) : FVec Ideal S50000x128 .f32 := Read.val_main_v29 (F := Ideal) x ei W1l W1r b1

theorem v13_eq (x : FVec Ideal S50000x128 .f32) (ei : IVec S2x600000 32) :
    Read.val_main_v13 (F := Ideal) x ei = aggArr x ei := rfl
theorem v17_eq (ei : IVec S2x600000 32) : Read.val_main_v17 (F := Ideal) ei = degArr ei := rfl
theorem v47_eq (ei : IVec S2x600000 32) : Read.val_main_v47 (F := Ideal) ei = degArr ei := rfl
theorem v43_eq (x : FVec Ideal S50000x128 .f32) (ei : IVec S2x600000 32) (W1l W1r : FVec Ideal S128x128 .f32)
    (b1 : FVec Ideal S128 .f32) :
    Read.val_main_v43 (F := Ideal) x ei W1l W1r b1 = aggArr (hidArr x ei W1l W1r b1) ei := rfl

/-! Index equations: the composed index functions of the layout operations, at ix2 / ix1. -/
theorem lidx23 (i : Fin 50000) (k a : Fin 128) : Read.lidx_main_v23 (ix2 i k) a = ix2 i a :=
  funext fun d => Fin.ext (by match d with | ⟨0, _⟩ => rfl | ⟨1, _⟩ => rfl)
theorem ridx23 (i : Fin 50000) (k a : Fin 128) : Read.ridx_main_v23 (ix2 i k) a = ix2 a k :=
  funext fun d => Fin.ext (by match d with | ⟨0, _⟩ => rfl | ⟨1, _⟩ => rfl)
theorem lidx24 (i : Fin 50000) (k a : Fin 128) : Read.lidx_main_v24 (ix2 i k) a = ix2 i a :=
  funext fun d => Fin.ext (by match d with | ⟨0, _⟩ => rfl | ⟨1, _⟩ => rfl)
theorem ridx24 (i : Fin 50000) (k a : Fin 128) : Read.ridx_main_v24 (ix2 i k) a = ix2 a k :=
  funext fun d => Fin.ext (by match d with | ⟨0, _⟩ => rfl | ⟨1, _⟩ => rfl)
theorem idx2627 (i : Fin 50000) (k : Fin 128) : Read.idx_main_v26 (Read.idx_main_v27 (ix2 i k)) = ix1 k :=
  funext fun d => Fin.ext (by match d with | ⟨0, _⟩ => rfl)
theorem idx2021 (i : Fin 50000) (a : Fin 128) : Read.idx_main_v20 (Read.idx_main_v21 (ix2 i a)) = ix1 i :=
  funext fun d => Fin.ext (by match d with | ⟨0, _⟩ => rfl)

theorem hidArr_apply (x : FVec Ideal S50000x128 .f32) (ei : IVec S2x600000 32) (W1l W1r : FVec Ideal S128x128 .f32)
    (b1 : FVec Ideal S128 .f32) (i : Fin 50000) (k : Fin 128) :
    hidArr x ei W1l W1r b1 (ix2 i k)
      = max ((∑ a : Fin 128, Ideal.div (aggArr x ei (ix2 i a))
                (max (degArr ei (ix1 i)) (Ideal.ofBits .f32 0x3F800000#32)) * W1l (ix2 a k)
              + ∑ a : Fin 128, x (ix2 i a) * W1r (ix2 a k)) + b1 (ix1 k)) 0 := by
  unfold hidArr
  rw [Read.val_main_v29_apply, Read.val_main_v28_apply, Read.val_main_v25_apply, Read.val_main_v23_apply,
    Read.val_main_v24_apply, Read.val_main_v27_apply, Read.val_main_v26_apply, Read.val_main_call0_v0_apply,
    Read.val_main_call0_cst_apply]
  simp only [Read.val_main_v22_apply, Read.val_main_v21_apply, Read.val_main_v20_apply, Read.val_main_v19_apply,
    Read.val_main_v18_apply, Read.val_main_cst_3_apply, lidx23, ridx23, lidx24, ridx24, idx2627, idx2021,
    v13_eq, v17_eq, Ideal.ofBits_def, Ideal.addf_def, Ideal.maximumf_def, Ideal.hostDivf_def, Ideal.ofBits_zero_f32]

theorem lidx53 (i : Fin 50000) (j : Fin 64) (k : Fin 128) : Read.lidx_main_v53 (ix2 i j) k = ix2 i k :=
  funext fun d => Fin.ext (by match d with | ⟨0, _⟩ => rfl | ⟨1, _⟩ => rfl)
theorem ridx53 (i : Fin 50000) (j : Fin 64) (k : Fin 128) : Read.ridx_main_v53 (ix2 i j) k = ix2 k j :=
  funext fun d => Fin.ext (by match d with | ⟨0, _⟩ => rfl | ⟨1, _⟩ => rfl)
theorem lidx54 (i : Fin 50000) (j : Fin 64) (k : Fin 128) : Read.lidx_main_v54 (ix2 i j) k = ix2 i k :=
  funext fun d => Fin.ext (by match d with | ⟨0, _⟩ => rfl | ⟨1, _⟩ => rfl)
theorem ridx54 (i : Fin 50000) (j : Fin 64) (k : Fin 128) : Read.ridx_main_v54 (ix2 i j) k = ix2 k j :=
  funext fun d => Fin.ext (by match d with | ⟨0, _⟩ => rfl | ⟨1, _⟩ => rfl)
theorem idx5657 (i : Fin 50000) (j : Fin 64) : Read.idx_main_v56 (Read.idx_main_v57 (ix2 i j)) = ix1 j :=
  funext fun d => Fin.ext (by match d with | ⟨0, _⟩ => rfl)
theorem idx5051 (i : Fin 50000) (k : Fin 128) : Read.idx_main_v50 (Read.idx_main_v51 (ix2 i k)) = ix1 i :=
  funext fun d => Fin.ext (by match d with | ⟨0, _⟩ => rfl)

/-- The reference's result at (i, j): the second layer over the hidden features, the aggregations and the degrees
    still as the scatter-adds read at an index. -/
theorem out_apply (x : FVec Ideal S50000x128 .f32) (ei : IVec S2x600000 32) (W1l W1r : FVec Ideal S128x128 .f32)
    (b1 : FVec Ideal S128 .f32) (W2l W2r : FVec Ideal S128x64 .f32) (b2 : FVec Ideal S64 .f32)
    (i : Fin 50000) (j : Fin 64) :
    Read.val_main_v58 (F := Ideal) x ei W1l W1r b1 W2l W2r b2 (ix2 i j)
      = (∑ k : Fin 128, Ideal.div (aggArr (hidArr x ei W1l W1r b1) ei (ix2 i k))
            (max (degArr ei (ix1 i)) (Ideal.ofBits .f32 0x3F800000#32)) * W2l (ix2 k j)
          + ∑ k : Fin 128, hidArr x ei W1l W1r b1 (ix2 i k) * W2r (ix2 k j)) + b2 (ix1 j) := by
  rw [Read.val_main_v58_apply, Read.val_main_v55_apply, Read.val_main_v53_apply, Read.val_main_v54_apply,
    Read.val_main_v57_apply, Read.val_main_v56_apply]
  simp only [Read.val_main_v52_apply, Read.val_main_v51_apply, Read.val_main_v50_apply, Read.val_main_v49_apply,
    Read.val_main_v48_apply, Read.val_main_cst_9_apply, lidx53, ridx53, lidx54, ridx54, idx5657, idx5051,
    v43_eq, v47_eq, Ideal.ofBits_def, Ideal.addf_def, Ideal.maximumf_def, Ideal.hostDivf_def]
  rfl

/-! ## The gather and the scatter-adds at an index, over the edge maps

landD (the node an edge lands on, or none) and srcRow (the node an edge reads) are the shared edge maps; here they are
taken at the reference's two index arrays. -/

/-- The index array's entry a row gather reads for result element (e, k) is entry (e, 0). -/
theorem rowsIdx_ix2 (e : Fin 600000) (k : Fin 128) :
    (rowsIdx (ix2 e k) : S600000x1.Idx) = ix2 e ⟨0, Nat.one_pos⟩ :=
  funext fun a => by match a with | ⟨0, _⟩ => rfl | ⟨1, _⟩ => rfl

/-- The gathered array's row e is the node array's row srcRow e. -/
theorem gath_apply (v : FVec Ideal S50000x128 .f32) (ei : IVec S2x600000 32) (e : Fin 600000) (k : Fin 128) :
    gath v ei (ix2 e k) = v (ix2 (Cert.Edges.srcRow (srcIdx ei) e) k) := by
  unfold gath
  refine (gather_rows_apply (N := 50000) (D := 128) (R := 600000) (by norm_num) _ v (srcIdx ei) (ix2 e k)).trans ?_
  refine congrArg v ?_
  refine congrArg₂ (fun (a : Fin 50000) (b : Fin 128) => (ix2 a b : S50000x128.Idx)) (Fin.ext ?_) (Fin.ext rfl)
  show min ((srcIdx ei) (rowsIdx (ix2 e k))).toInt.toNat (50000 - 1)
    = min ((srcIdx ei) (ix2 e ⟨0, Nat.one_pos⟩)).toInt.toNat (50000 - 1)
  rw [rowsIdx_ix2]

/-- The aggregation array at (i, k): the sum, over the edges landing on i, of the source rows' column k. -/
theorem aggArr_apply (v : FVec Ideal S50000x128 .f32) (ei : IVec S2x600000 32) (i : Fin 50000) (k : Fin 128) :
    aggArr v ei (ix2 i k)
      = Sage.agg (Cert.Edges.landD (dstIdx ei)) (Cert.Edges.srcRow (srcIdx ei)) (fun s a => v (ix2 s a)) i k := by
  unfold aggArr
  refine (scatterAdd_rows_apply (N := 50000) (D := 128) (R := 600000) _ (Read.val_main_v11 (F := Ideal)) (dstIdx ei)
    (gath v ei) i k).trans ?_
  rw [Read.val_main_v11_apply, Read.val_main_cst_apply, Ideal.ofBits_def, Ideal.ofBits_zero_f32, zero_add]
  unfold Sage.agg Sage.into Cert.Edges.landD
  exact Finset.sum_congr rfl (fun e _ => gath_apply v ei e k)

/-- The degree vector at i: the number of edges landing on i. -/
theorem degArr_apply (ei : IVec S2x600000 32) (i : Fin 50000) :
    degArr ei (ix1 i) = (((Sage.into (Cert.Edges.landD (dstIdx ei)) i).card : ℝ) : EReal) := by
  unfold degArr
  refine (scatterAdd_vec_apply (N := 50000) (R := 600000) _ (Read.val_main_v15 (F := Ideal)) (dstIdx ei)
    (Read.val_main_v14 (F := Ideal)) i).trans ?_
  rw [Read.val_main_v15_apply, Read.val_main_cst_2_apply, Ideal.ofBits_def, Ideal.ofBits_zero_f32, zero_add]
  simp only [Read.val_main_v14_apply, Read.val_main_cst_1_apply, Ideal.ofBits_def, Ideal.ofBits_one_f32]
  exact Sage.card_sum _

/-- The mean: the aggregation divided by max(degree, 1) is the aggregation times the reciprocal count. -/
theorem mean_apply (v : FVec Ideal S50000x128 .f32) (ei : IVec S2x600000 32) (i : Fin 50000) (k : Fin 128) :
    Ideal.div (aggArr v ei (ix2 i k)) (max (degArr ei (ix1 i)) (Ideal.ofBits .f32 0x3F800000#32))
      = Sage.agg (Cert.Edges.landD (dstIdx ei)) (Cert.Edges.srcRow (srcIdx ei)) (fun s a => v (ix2 s a)) i k
          * Sage.cinv (Cert.Edges.landD (dstIdx ei)) i := by
  rw [aggArr_apply, degArr_apply, Ideal.ofBits_one_f32]
  exact Sage.div_count _ _

/-- The hidden features are the specification's. -/
theorem hidArr_eq (x : FVec Ideal S50000x128 .f32) (ei : IVec S2x600000 32) (W1l W1r : FVec Ideal S128x128 .f32)
    (b1 : FVec Ideal S128 .f32) (i : Fin 50000) (k : Fin 128) :
    hidArr x ei W1l W1r b1 (ix2 i k)
      = Sage.hid (Cert.Edges.landD (dstIdx ei)) (Cert.Edges.srcRow (srcIdx ei)) (fun i a => x (ix2 i a))
          (fun a k => W1l (ix2 a k)) (fun a k => W1r (ix2 a k)) (fun k => b1 (ix1 k)) i k := by
  rw [hidArr_apply]
  unfold Sage.hid
  simp only [mean_apply]

/-- The reference's result at (i, j) is the specification's two-layer convolution, aggregating before projecting. -/
theorem ref_value (x : FVec Ideal S50000x128 .f32) (ei : IVec S2x600000 32) (W1l W1r : FVec Ideal S128x128 .f32)
    (b1 : FVec Ideal S128 .f32) (W2l W2r : FVec Ideal S128x64 .f32) (b2 : FVec Ideal S64 .f32)
    (i : Fin 50000) (j : Fin 64) :
    Read.val_main_v58 (F := Ideal) x ei W1l W1r b1 W2l W2r b2 (ix2 i j)
      = Sage.outPost (Cert.Edges.landD (dstIdx ei)) (Cert.Edges.srcRow (srcIdx ei))
          (Sage.hid (Cert.Edges.landD (dstIdx ei)) (Cert.Edges.srcRow (srcIdx ei)) (fun i a => x (ix2 i a))
            (fun a k => W1l (ix2 a k)) (fun a k => W1r (ix2 a k)) (fun k => b1 (ix1 k)))
          (fun k j => W2l (ix2 k j)) (fun k j => W2r (ix2 k j)) (fun j => b2 (ix1 j)) i j := by
  rw [out_apply]
  unfold Sage.outPost
  simp only [mean_apply, hidArr_eq]

end Cert.ReferenceIdeal.RefValue

end
-- ==== Proof.FiniteArgs.lean ====
/-
  From the finiteness predicate to real-valued arguments.

  The predicate compares, entry by entry, |x| with +∞ (strictly), takes the conjunction over every entry of each
  of the seven float arrays, and conjoins the seven results. In the extended reals |x| = max x (-x), and
  max x (-x) < ⊤ fails at x = ⊤ and at x = ⊥, so every entry of every float array is a real number.
-/
import proofs.«117566_j50190987821456_2_alg».proof.Defs
import proofs.«117566_j50190987821456_2_alg».proof.Proof.SageAlgebra
import Idealize.ShloMosaic.Lib.ValueIdx
import Idealize.ShloMosaic.Lib.ReduceAll
import Idealize.ShloMosaic.PureOps.Ideal.Laws

noncomputable section

namespace Cert.FiniteArgs

open Idealize.ShloMosaic Idealize.SL.Sem Cert.Pre_finite_inputs

/-- The rank-0 shape has one index. -/
instance : Subsingleton S_.Idx := ⟨fun a b => funext fun d => d.elim0⟩

/-- The pattern 0x7F800000 of the 32-bit format denotes +∞. -/
theorem inf_bits : Ideal.ofBits .f32 0x7F800000#32 = (⊤ : EReal) := by
  simp [Ideal.ofBits, Ideal.ieee]

/-- An extended real whose absolute value is strictly below +∞ is a real number. -/
theorem isR_of_abs_lt_top (x : EReal) (h : Ideal.cmp .olt (max x (-x)) ⊤ = 1#1) : Sage.IsR x := by
  induction x using EReal.rec with
  | bot => simp [Ideal.cmp] at h
  | coe r => exact ⟨r, rfl⟩
  | top => simp [Ideal.cmp] at h

/-- One array: if the conjunction over all entries of "|entry| < +∞" is 1, every entry is real. -/
theorem all_real {s : Shape} {axes : List (Fin s.rank)} (a : FVec Ideal s .f32)
    (bc : S_.BroadcastsInDim s (![] : Fin 0 → Fin s.rank)) (hred : s.ReducesTo axes S_) (hu : 0 < S_.numel)
    (init : IVec S_ 1) (j : S_.Idx)
    (e : Host.reduce IntOp.andi (cmpf .olt (Host.absf a) (broadcastInDim s ![] bc (constant S_ .f32 0x7F800000#32)))
          init hred hu j = 1#1) (y : s.Idx) : Sage.IsR (a y) := by
  have h1 := Host.reduce_andi_all _ init hred hu j e y
  simp only [cmpf, Host.absf, broadcastInDim, constant] at h1
  have h2 : Ideal.cmp .olt (max (a y) (-(a y))) (Ideal.ofBits .f32 0x7F800000#32) = 1#1 := h1
  rw [inf_bits] at h2
  exact isR_of_abs_lt_top _ h2

variable [Cert.Pre_finite_inputs.Facts]

/-- The predicate being all ones makes every entry of each of the seven float arrays a real number. -/
theorem real_of_fn (a0 : FVec Ideal S50000x128 .f32) (a1 : IVec S2x600000 32) (a2 a3 : FVec Ideal S128x128 .f32)
    (a4 : FVec Ideal S128 .f32) (a5 a6 : FVec Ideal S128x64 .f32) (a7 : FVec Ideal S64 .f32)
    (h : Cert.Pre_finite_inputs.fn (F := Ideal) a0 a1 a2 a3 a4 a5 a6 a7 = (fun _ => 1#1)) :
    (∀ y, Sage.IsR (a0 y)) ∧ (∀ y, Sage.IsR (a2 y)) ∧ (∀ y, Sage.IsR (a3 y)) ∧ (∀ y, Sage.IsR (a4 y))
      ∧ (∀ y, Sage.IsR (a5 y)) ∧ (∀ y, Sage.IsR (a6 y)) ∧ (∀ y, Sage.IsR (a7 y)) := by
  have h0 := congrFun h ValueIdx.ix0
  dsimp only [fn, fn_part1] at h0
  simp only [andi, IntOp.andi_eq_one] at h0
  obtain ⟨⟨⟨⟨⟨⟨e0, e2⟩, e3⟩, e4⟩, e5⟩, e6⟩, e7⟩ := h0
  exact ⟨all_real a0 _ _ _ _ _ e0, all_real a2 _ _ _ _ _ e2, all_real a3 _ _ _ _ _ e3, all_real a4 _ _ _ _ _ e4,
    all_real a5 _ _ _ _ _ e5, all_real a6 _ _ _ _ _ e6, all_real a7 _ _ _ _ _ e7⟩

/-- Over a memory: under the precondition, on every device, every entry of each float argument array is real. -/
theorem real_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ y, Sage.IsR (m ((c.tc : Thread Cert.KernelIdeal.nD Cert.KernelIdeal.τ).loc Cert.KernelIdeal.main_arg0) y))
      ∧ (∀ y, Sage.IsR (m ((c.tc : Thread Cert.KernelIdeal.nD Cert.KernelIdeal.τ).loc Cert.KernelIdeal.main_arg2) y))
      ∧ (∀ y, Sage.IsR (m ((c.tc : Thread Cert.KernelIdeal.nD Cert.KernelIdeal.τ).loc Cert.KernelIdeal.main_arg3) y))
      ∧ (∀ y, Sage.IsR (m ((c.tc : Thread Cert.KernelIdeal.nD Cert.KernelIdeal.τ).loc Cert.KernelIdeal.main_arg4) y))
      ∧ (∀ y, Sage.IsR (m ((c.tc : Thread Cert.KernelIdeal.nD Cert.KernelIdeal.τ).loc Cert.KernelIdeal.main_arg5) y))
      ∧ (∀ y, Sage.IsR (m ((c.tc : Thread Cert.KernelIdeal.nD Cert.KernelIdeal.τ).loc Cert.KernelIdeal.main_arg6) y))
      ∧ (∀ y, Sage.IsR (m ((c.tc : Thread Cert.KernelIdeal.nD Cert.KernelIdeal.τ).loc Cert.KernelIdeal.main_arg7) y)) :=
  real_of_fn _ _ _ _ _ _ _ _ (hpre c)

end Cert.FiniteArgs

end
-- ==== Proof.lean ====
/-
  Two programs compute a two-layer mean-aggregation graph convolution of 50000 nodes over 600000 edges:
      h   = relu (mean(x) · W1l + x · W1r + b1),      out = mean(h) · W2l + h · W2r + b2,
  where mean(v) at node i is the sum of v over the source rows of the edges landing on i, divided by
  max(number of such edges, 1). The reference computes exactly this with whole-array operations. The kernel program
  computes h and the projection p = h · W2l in a first call over ten row blocks, aggregates p over the edges on the
  host, and adds mean(p) = mean(h) · W2l in a second call: the projection is moved before the aggregation.

  At the ideal values (floats are extended reals, every operation exact, format changes the identity) the two results
  agree entry by entry when the float inputs are finite: h is then real, so the sum over edges, the division by the
  count and the product with the real weight W2l commute by distributivity in ℝ. The kernel program's idealization
  rewrote nothing, so the preservation claim is empty. The three frame claims are the programs' runs.
-/
import proofs.«117566_j50190987821456_2_alg».proof.Defs
import proofs.«117566_j50190987821456_2_alg».proof.Proof.Gen.Kernel
import proofs.«117566_j50190987821456_2_alg».proof.Proof.Gen.Kernel.Frame
import proofs.«117566_j50190987821456_2_alg».proof.Proof.Gen.KernelIdeal
import proofs.«117566_j50190987821456_2_alg».proof.Proof.Gen.KernelIdeal.Frame
import proofs.«117566_j50190987821456_2_alg».proof.Proof.Gen.ReferenceIdeal
import proofs.«117566_j50190987821456_2_alg».proof.Proof.Gen.ReferenceIdeal.Run
import proofs.«117566_j50190987821456_2_alg».proof.Proof.Gen.Pre_finite_inputs
import proofs.«117566_j50190987821456_2_alg».proof.Proof.KRun
import proofs.«117566_j50190987821456_2_alg».proof.Proof.KValue
import proofs.«117566_j50190987821456_2_alg».proof.Proof.RefValue
import proofs.«117566_j50190987821456_2_alg».proof.Proof.FiniteArgs
import proofs.«117566_j50190987821456_2_alg».proof.Proof.SageAlgebra
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)
theorem preserves : Cert.preserves_Kernel_KernelIdeal := trivial

/-- The reference's result and the kernel program's result are the same array. Entry (i, j) of the first is the
    second layer with the projection AFTER the aggregation, entry (i, j) of the second the same with the projection
    BEFORE it, both over the same edge maps (the two programs compute the edge index arrays by the same operations)
    and the same hidden features; the hidden features and the left weight are real because the inputs are finite, and
    then the two orders agree. -/
theorem algebraic : Cert.algebraic_KernelIdeal_ReferenceIdeal := by
  intro m ρ m' ρ' hpre hagree
  refine ⟨fun c => Cert.KernelIdeal.Gen.W4 m ρ c (Proc.devRef .tc Cert.KernelIdeal.main_v40),
    Cert.KernelIdeal.KRun.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  obtain ⟨r0, r2, r3, r4, r5, r6, r7⟩ := Cert.FiniteArgs.real_of_pre m hpre c
  rw [Cert.ReferenceIdeal.Read.val_main_v58_eq, h0, h1, h2, h3, h4, h5, h6, h7]
  funext y
  obtain ⟨i, j, rfl⟩ : ∃ (i : Fin 50000) (j : Fin 64), y = ValueIdx.ix2 i j := ⟨y 0, y 1, ValueIdx.eq_ix2 y⟩
  refine (Cert.ReferenceIdeal.RefValue.ref_value _ _ _ _ _ _ _ _ i j).trans ?_
  refine Eq.trans ?_ (Cert.KernelIdeal.KValue.kernel_value m ρ c i j).symm
  exact (Sage.outPre_eq_outPost _ _ _ _ _ _
    (fun s k => Sage.hid_isR _ _ _ _ _ _ (fun s a => r0 _) (fun a k => r2 _) (fun a k => r3 _) (fun k => r4 _) s k)
    (fun k j => r5 _) i j).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
